-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg5 : FVec F S11008x4096 .f32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_v19 : FVec F S11008x4096 .f32 := Host.absf main_arg5
  let main_cst_6 : FVec F S_ .f32 := constant S_ .f32 0x7F800000#32
  let main_v20 : FVec F S11008x4096 .f32 := broadcastInDim S11008x4096 ![] bcast_S_S11008x4096 main_cst_6
  let main_v21 : IVec S11008x4096 1 := cmpf .olt main_v19 main_v20
  let main_c_7 : IVec S_ 1 := constantI S_ 1 1#1
  let main_v22 : IVec S_ 1 := (fun x v => Host.reduce IntOp.andi x v reducesTo_S11008x4096_S_d0_1 h_S_) main_v21 main_c_7
  let main_v23 : IVec S_ 1 := andi main_v18 main_v22
  main_v23

def fn {F : FTy → Type} [FloatOps F] (main_arg0 : FVec F S4096x4096 .f32) (main_arg1 : IVec S11008x4096 32) (main_arg2 : FVec F S11008x32 .f32) (main_arg3 : FVec F S11008x32 .f32) (main_arg4 : FVec F S11008 .f32) (main_arg5 : FVec F S11008x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg5 main_v13 main_v16
-- ==== Kernel.lean ====
abbrev S4096x4096 : Shape := ⟨2, ![4096, 4096]⟩
abbrev S11008x4096 : Shape := ⟨2, ![11008, 4096]⟩
abbrev S11008x32 : Shape := ⟨2, ![11008, 32]⟩
abbrev S11008 : Shape := ⟨1, ![11008]⟩
abbrev S32x11008 : Shape := ⟨2, ![32, 11008]⟩
abbrev S1x11008 : Shape := ⟨2, ![1, 11008]⟩
abbrev S4096x11008 : Shape := ⟨2, ![4096, 11008]⟩
abbrev S1408x1024 : Shape := ⟨2, ![1408, 1024]⟩
abbrev S512x1024 : Shape := ⟨2, ![512, 1024]⟩
abbrev S8x512 : Shape := ⟨2, ![8, 512]⟩
abbrev S1x512 : Shape := ⟨2, ![1, 512]⟩
abbrev S1408x512 : Shape := ⟨2, ![1408, 512]⟩
abbrev S512x8 : Shape := ⟨2, ![512, 8]⟩
abbrev S512x8x1 : Shape := ⟨3, ![512, 8, 1]⟩
abbrev S512x8x128 : Shape := ⟨3, ![512, 8, 128]⟩

abbrev nBuf : Space → Nat
  | .hbm => 10
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S11008x4096, .f32⟩
  | .hbm, ⟨6, _⟩ => ⟨S32x11008, .f32⟩
  | .hbm, ⟨7, _⟩ => ⟨S32x11008, .f32⟩
  | .hbm, ⟨8, _⟩ => ⟨S1x11008, .f32⟩
  | .hbm, ⟨9, _⟩ => ⟨S4096x11008, .f32⟩
  | .local _ .vmem, ⟨0, _⟩ => ⟨S1408x1024, .f32⟩
  | .local _ .vmem, ⟨1, _⟩ => ⟨S1408x1024, .f32⟩
  | .local _ .vmem, ⟨2, _⟩ => ⟨S512x1024, .i32⟩
  | .local _ .vmem, ⟨3, _⟩ => ⟨S512x1024, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S512x1024, .f32⟩
  | .local _ .vmem, ⟨9, _⟩ => ⟨S512x1024, .f32⟩
  | .local _ .vmem, ⟨10, _⟩ => ⟨S1x512, .f32⟩
  | .local _ .vmem, ⟨11, _⟩ => ⟨S1x512, .f32⟩
  | .local _ .vmem, ⟨12, _⟩ => ⟨S1408x512, .f32⟩
  | .local _ .vmem, ⟨13, _⟩ => ⟨S1408x512, .f32⟩
  | .local _ .vmem, ⟨14, _⟩ => ⟨S1408x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![3, 22, 4], ![false, false, false]⟩

def k0_cond2 (i : grid0.Coords) : BitVec 1 :=
  let arg2 : BitVec 32 := BitVec.ofNat 32 (i 2).val
  let c3_i32 : BitVec 32 := 3#32
  let v36 : BitVec 1 := Scalar.cmpi .eq arg2 c3_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1408x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  transposes_S11008x32_S32x11008_1_0 : S11008x32.Transposes [1, 0] S32x11008
  shapeCasts_S11008_S1x11008 : S11008.ShapeCasts S1x11008
  inb_S1408x512_S1408x512_0_0 : ∀ a, (![0, 0] : Fin 2 → Nat) a + S1408x512.size a ≤ S1408x512.size a
  h_S1408x512 : 0 < S1408x512.numel
  shapeCasts_S1408x512_S1408x512 : S1408x512.ShapeCasts S1408x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  transposes_S8x512_p1_0_S512x8 : S8x512.Transposes [1, 0] S512x8
  shapeCasts_S512x8_S512x8x1 : S512x8.ShapeCasts S512x8x1
  shapeCasts_S512x8x1_S512x8x1 : S512x8x1.ShapeCasts S512x8x1
  broadcasts_S512x8x1_S512x8x128 : S512x8x1.Broadcasts S512x8x128
  shapeCasts_S512x8x128_S512x1024 : S512x8x128.ShapeCasts S512x1024
  inb_S512x1024_S512x1024_0_0 : ∀ a, (![0, 0] : Fin 2 → Nat) a + S512x1024.size a ≤ S512x1024.size a
  h_S512x1024 : 0 < S512x1024.numel
  inb_S1408x1024_S1408x1024_0_0 : ∀ a, (![0, 0] : Fin 2 → Nat) a + S1408x1024.size a ≤ S1408x1024.size a
  h_S1408x1024 : 0 < S1408x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1408x512 : S1x512.Broadcasts S1408x512
  dot_S1408x1024_S512x1024_S1408x512_1_1_0_0_n_n_wf : DotDims.WF S1408x1024 S512x1024 S1408x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1408x1024.size a < S4096x4096.size a
  hwx0_0 : ∀ i : grid0.Coords, EltTy.bits .f32 = 32 ∨ (Rect.unit (s := S4096x4096) (fun a => cc0_transform_0 i a * S1408x1024.size a) (fun a => (Pipeline.Clip.of (cc0_transform_0 i a) (S1408x1024.size a) (S4096x4096.size a)).extent (S1408x1024.size a)) fun a => Pipeline.Clip.inb (Pipeline.Clip.ok_of (hstart0_0 i a))).WholeWords (EltTy.packing .f32)
  hwxs0_0 : ∀ i : grid0.Coords, EltTy.bits .f32 = 32 ∨ (Rect.unit (s := S1408x1024) (fun _ => 0) (fun a => (Pipeline.Clip.of (cc0_transform_0 i a) (S1408x1024.size a) (S4096x4096.size a)).extent (S1408x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1024.size a < S11008x4096.size a
  hwx0_1 : ∀ i : grid0.Coords, EltTy.bits .i32 = 32 ∨ (Rect.unit (s := S11008x4096) (fun a => cc0_transform_1 i a * S512x1024.size a) (fun a => (Pipeline.Clip.of (cc0_transform_1 i a) (S512x1024.size a) (S11008x4096.size a)).extent (S512x1024.size a)) fun a => Pipeline.Clip.inb (Pipeline.Clip.ok_of (hstart0_1 i a))).WholeWords (EltTy.packing .i32)
  hwxs0_1 : ∀ i : grid0.Coords, EltTy.bits .i32 = 32 ∨ (Rect.unit (s := S512x1024) (fun _ => 0) (fun a => (Pipeline.Clip.of (cc0_transform_1 i a) (S512x1024.size a) (S11008x4096.size a)).extent (S512x1024.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x512.size a < S32x11008.size a
  hwx0_2 : ∀ i : grid0.Coords, EltTy.bits .f32 = 32 ∨ (Rect.unit (s := S32x11008) (fun a => cc0_transform_2 i a * S8x512.size a) (fun a => (Pipeline.Clip.of (cc0_transform_2 i a) (S8x512.size a) (S32x11008.size a)).extent (S8x512.size a)) fun a => Pipeline.Clip.inb (Pipeline.Clip.ok_of (hstart0_2 i a))).WholeWords (EltTy.packing .f32)
  hwxs0_2 : ∀ i : grid0.Coords, EltTy.bits .f32 = 32 ∨ (Rect.unit (s := S8x512) (fun _ => 0) (fun a => (Pipeline.Clip.of (cc0_transform_2 i a) (S8x512.size a) (S32x11008.size a)).extent (S8x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x512.size a < S32x11008.size a
  hwx0_3 : ∀ i : grid0.Coords, EltTy.bits .f32 = 32 ∨ (Rect.unit (s := S32x11008) (fun a => cc0_transform_3 i a * S8x512.size a) (fun a => (Pipeline.Clip.of (cc0_transform_3 i a) (S8x512.size a) (S32x11008.size a)).extent (S8x512.size a)) fun a => Pipeline.Clip.inb (Pipeline.Clip.ok_of (hstart0_3 i a))).WholeWords (EltTy.packing .f32)
  hwxs0_3 : ∀ i : grid0.Coords, EltTy.bits .f32 = 32 ∨ (Rect.unit (s := S8x512) (fun _ => 0) (fun a => (Pipeline.Clip.of (cc0_transform_3 i a) (S8x512.size a) (S32x11008.size a)).extent (S8x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x1024.size a < S11008x4096.size a
  hwx0_4 : ∀ i : grid0.Coords, EltTy.bits .f32 = 32 ∨ (Rect.unit (s := S11008x4096) (fun a => cc0_transform_4 i a * S512x1024.size a) (fun a => (Pipeline.Clip.of (cc0_transform_4 i a) (S512x1024.size a) (S11008x4096.size a)).extent (S512x1024.size a)) fun a => Pipeline.Clip.inb (Pipeline.Clip.ok_of (hstart0_4 i a))).WholeWords (EltTy.packing .f32)
  hwxs0_4 : ∀ i : grid0.Coords, EltTy.bits .f32 = 32 ∨ (Rect.unit (s := S512x1024) (fun _ => 0) (fun a => (Pipeline.Clip.of (cc0_transform_4 i a) (S512x1024.size a) (S11008x4096.size a)).extent (S512x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x512.size a < S1x11008.size a
  hwx0_5 : ∀ i : grid0.Coords, EltTy.bits .f32 = 32 ∨ (Rect.unit (s := S1x11008) (fun a => cc0_transform_5 i a * S1x512.size a) (fun a => (Pipeline.Clip.of (cc0_transform_5 i a) (S1x512.size a) (S1x11008.size a)).extent (S1x512.size a)) fun a => Pipeline.Clip.inb (Pipeline.Clip.ok_of (hstart0_5 i a))).WholeWords (EltTy.packing .f32)
  hwxs0_5 : ∀ i : grid0.Coords, EltTy.bits .f32 = 32 ∨ (Rect.unit (s := S1x512) (fun _ => 0) (fun a => (Pipeline.Clip.of (cc0_transform_5 i a) (S1x512.size a) (S1x11008.size a)).extent (S1x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1408x512.size a < S4096x11008.size a
  hwx0_6 : ∀ i : grid0.Coords, EltTy.bits .f32 = 32 ∨ (Rect.unit (s := S4096x11008) (fun a => cc0_transform_6 i a * S1408x512.size a) (fun a => (Pipeline.Clip.of (cc0_transform_6 i a) (S1408x512.size a) (S4096x11008.size a)).extent (S1408x512.size a)) fun a => Pipeline.Clip.inb (Pipeline.Clip.ok_of (hstart0_6 i a))).WholeWords (EltTy.packing .f32)
  hwxs0_6 : ∀ i : grid0.Coords, EltTy.bits .f32 = 32 ∨ (Rect.unit (s := S1408x512) (fun _ => 0) (fun a => (Pipeline.Clip.of (cc0_transform_6 i a) (S1408x512.size a) (S4096x11008.size a)).extent (S1408x512.size a)) fun a => (Nat.zero_add _).trans_le (Pipeline.Clip.extent_le (Pipeline.Clip.ok_of (hstart0_6 i a)))).WholeWords (EltTy.packing .f32)

variable [Facts₀]

def dot_S1408x1024_S512x1024_S1408x512_1_1_0_0_n_n : DotDims S1408x1024 S512x1024 S1408x512 where
  lhsContracting := [1]
  rhsContracting := [1]
  lhsNonContracting := [0]
  rhsNonContracting := [0]
  lhsBatch := []
  rhsBatch := []
  wf := dot_S1408x1024_S512x1024_S1408x512_1_1_0_0_n_n_wf

abbrev win0_0 : Pipeline.Window sig grid0 :=
  Pipeline.Window.ofSpecClip (Memref.whole main_arg0) S1408x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S512x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S8x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S8x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg5) S512x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v2) S1x512.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v3) S1408x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S11008x32x1 : Shape := ⟨3, ![11008, 32, 1]⟩
abbrev S_ : Shape := ⟨0, ![]⟩
abbrev S4096x11008 : Shape := ⟨2, ![4096, 11008]⟩
abbrev S1x11008 : Shape := ⟨2, ![1, 11008]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S11008x4096, .f32⟩
  | .hbm, ⟨6, _⟩ => ⟨S11008x32x128, .i32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x32x1, .f32⟩
  | .hbm, ⟨12, _⟩ => ⟨S11008x32x128, .f32⟩
  | .hbm, ⟨13, _⟩ => ⟨S11008x32x128, .f32⟩
  | .hbm, ⟨14, _⟩ => ⟨S11008x4096, .f32⟩
  | .hbm, ⟨15, _⟩ => ⟨S11008x4096, .f32⟩
  | .hbm, ⟨16, _⟩ => ⟨S_, .f32⟩
  | .hbm, ⟨17, _⟩ => ⟨S11008x4096, .f32⟩
  | .hbm, ⟨18, _⟩ => ⟨S11008x4096, .f32⟩
  | .hbm, ⟨19, _⟩ => ⟨S11008x4096, .f32⟩
  | .hbm, ⟨20, _⟩ => ⟨S11008x4096, .f32⟩
  | .hbm, ⟨21, _⟩ => ⟨S4096x11008, .f32⟩
  | .hbm, ⟨22, _⟩ => ⟨S1x11008, .f32⟩
  | .hbm, ⟨23, _⟩ => ⟨S4096x11008, .f32⟩
  | .hbm, ⟨24, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S_S11008x4096 : S_.BroadcastsInDim S11008x4096 (![] : Fin 0 → Fin S11008x4096.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.KernelFrameBody.lean ====
/-
  The kernel body of the word-level program runs from ANY contents of its buffers and faults nowhere.

  One call of the body touches eight whole VMEM buffers: the staged blocks of the activations, of the quantized
  weights, of the (transposed) scales and zero points, of the noise, of the bias row and of the result, and the
  scratch accumulator. Each of its loads and stores is of a whole buffer through a literal rectangle, so it is
  in bounds whatever the buffer holds; the arithmetic in between is pure. Its two conditionals test the third grid
  coordinate only: the first resets the accumulator at the first step of the reduction, the second adds the bias
  and stores the result's block at the last. Hence, whichever way the two tests go, ownership of the eight buffers
  at some contents is carried to ownership of the eight buffers at some contents. That is all a frame needs of
  the body: nothing here says what the new contents are.
-/
import proofs.«104597_j16475494548100_1_alg».proof.Proof.Gen.Kernel.Frame
import proofs.«104597_j16475494548100_1_alg».proof.Proof.Gen.Kernel.Skeleton
import Idealize.ShloMosaic.Lib.Tactic

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- The first conditional's test, as the body computes it from the third grid coordinate: the reduction's first step. -/
abbrev condReset (i : grid0.Coords) : Prop :=
  (Scalar.cmpi .ne (Scalar.extui (Scalar.cmpi .eq (BitVec.ofNat 32 (i 2).val) 0#32)) 0#32) = 1#1

/-- The second conditional's test: the reduction's last step. -/
abbrev condStore (i : grid0.Coords) : Prop := k0_cond2 i = 1#1

/-- The eight buffers of one call, each owned whole at some contents. -/
def held (c : Dev nD) (arg3 : Memref sig .tc .vmem S1408x1024 .f32) (arg4 : Memref sig .tc .vmem S512x1024 .i32) (arg5 : Memref sig .tc .vmem S8x512 .f32) (arg6 : Memref sig .tc .vmem S8x512 .f32) (arg7 : Memref sig .tc .vmem S512x1024 .f32) (arg8 : Memref sig .tc .vmem S1x512 .f32) (arg9 : Memref sig .tc .vmem S1408x512 .f32) (arg10 : Memref sig .tc .vmem S1408x512 .f32) : sProp 𝕄 :=
  iprop((∃ X, owns (c : Thread nD τ) arg3 fullShare X)
      ∗ (∃ X, owns (c : Thread nD τ) arg4 fullShare X)
      ∗ (∃ X, owns (c : Thread nD τ) arg5 fullShare X)
      ∗ (∃ X, owns (c : Thread nD τ) arg6 fullShare X)
      ∗ (∃ X, owns (c : Thread nD τ) arg7 fullShare X)
      ∗ (∃ X, owns (c : Thread nD τ) arg8 fullShare X)
      ∗ (∃ X, owns (c : Thread nD τ) arg9 fullShare X)
      ∗ (∃ X, owns (c : Thread nD τ) arg10 fullShare X))

/-- From the eight buffers at any contents the body runs to the eight buffers at some contents, at every grid
    point: by cases on the two tests, in each case the loads, the pure arithmetic and the whole-buffer stores
    in turn. -/
theorem kernelRun (c : Dev nD) (i : grid0.Coords) (arg3 : Memref sig .tc .vmem S1408x1024 .f32) (harg3 : arg3.IsWhole) (arg4 : Memref sig .tc .vmem S512x1024 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S512x1024 .f32) (harg7 : arg7.IsWhole) (arg8 : Memref sig .tc .vmem S1x512 .f32) (harg8 : arg8.IsWhole) (arg9 : Memref sig .tc .vmem S1408x512 .f32) (harg9 : arg9.IsWhole) (arg10 : Memref sig .tc .vmem S1408x512 .f32) (harg10 : arg10.IsWhole)
    (E : Set ℕ) (K : PUnit → sProp 𝕄) :
    iprop(held c arg3 arg4 arg5 arg6 arg7 arg8 arg9 arg10 ∗ (held c arg3 arg4 arg5 arg6 arg7 arg8 arg9 arg10 -∗ K ⟨⟩))
      ⊢ wp frame (wpE (defs₀ (F := F)) Variants.none c none) E (cc0__kernel i arg3 harg3 arg4 harg4 arg5 harg5 arg6 harg6 arg7 harg7 arg8 harg8 arg9 harg9 arg10 harg10) K := by
  unfold held
  simp only [cc0__kernel_eq_skeleton]; unfold cc0__kernel_skel
  unfold owns
  iintro ⟨⟨⟨%X0, %f0, -, H0⟩, ⟨%X1, %f1, -, H1⟩, ⟨%X2, %f2, -, H2⟩, ⟨%X3, %f3, -, H3⟩, ⟨%X4, %f4, -, H4⟩, ⟨%X5, %f5, -, H5⟩, ⟨%X6, %f6, -, H6⟩, ⟨%X7, %f7, -, H7⟩⟩, Hk⟩
  by_cases hr : condReset i <;> by_cases hs : condStore i
  all_goals
    sl_exec (disch := first | exact hr | exact hs)
    sl_step
    iapply Hk
    isplitl [H0]
    · iexists _; iexists _; isplitr; swap; · iexact H0
      ipureintro; rfl
    isplitl [H1]
    · iexists _; iexists _; isplitr; swap; · iexact H1
      ipureintro; rfl
    isplitl [H2]
    · iexists _; iexists _; isplitr; swap; · iexact H2
      ipureintro; rfl
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    isplitl [H6]
    · iexists _; iexists _; isplitr; swap; · iexact H6
      ipureintro; rfl
    · iexists _; iexists _; isplitr; swap; · iexact H7
      ipureintro; rfl

end Cert.KernelFrame

end
-- ==== Proof.KernelFrame.lean ====
/-
  The frame of the word-level program: every weakly fair execution of the tiled quantized linear layer terminates,
  nothing faults, and the six argument arrays end as they began.

  The program is three host operations (two transposes and a reshape, each writing a fresh buffer), then one
  pipelined region over a grid of 3 x 22 x 4 points with seven windows, of which six are inputs and one is the
  result. The region's proof data here say NOTHING of what the body leaves in a staging buffer: each buffer is handed
  to the body at whatever it holds and taken back at whatever it then holds, and the scratch accumulator lives
  in the region's invariant at some contents, before and after every point. That is enough, because the body runs
  from any contents (the companion module), an input window's array is never written by the pipeline, and the
  arrays the region does not stage bypass it. The argument arrays are then read back: the three a window stages
  (activations, quantized weights, noise) as input arrays of the pipeline, the three the host operations read
  (scales, zero points, bias) as buffers the region never holds; and no host operation writes an argument.
-/
import proofs.«104597_j16475494548100_1_alg».proof.Proof.KernelFrameBody
import proofs.«104597_j16475494548100_1_alg».proof.Defs
import proofs.«104597_j16475494548100_1_alg».proof.Proof.Gen.Pre_finite_inputs
import Idealize.ShloMosaic.Lib.Pipeline.Frame
import Idealize.ShloMosaic.Lib.Pipeline.Cells

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of one call -/

/-- Each window's current staging buffer at point `t`, as the pipeline passes it to the body, and its wholeness. -/
abbrev ms0 (t : Fin cfg0.N) : Memref sig .tc .vmem S1408x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1408x512 .f32 := win0_6.stage (cfg0.slots t 6)
abbrev hs6 (t : Fin cfg0.N) : (ms6 t).IsWhole := hstage0_6 ((cfg0.slots t 6).cast nbuf0_6)
/-- The scratch accumulator, a whole scoped buffer of the kernel's own. -/
abbrev scM : Memref sig .tc .vmem S1408x512 .f32 := Memref.whole cc0_scratch0

/-- The region's invariant, opened: the scratch accumulator owned at some contents, and the generator register
    at some state. -/
theorem PhiA_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-! ## The proof data: nothing is said of any staging buffer -/

/-- The arrays as the region finds them; of what the body leaves in a staging buffer, nothing (the relation that
    always holds); the invariant the scratch accumulator and the generator register at anything; full shares;
    nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdat m c).A w = V m c (Pipeline.arrRef spec0 w) := by
  dsimp only [rdat]

/-! ## The body obligation -/

/-- What the body is called with at point `t`: the invariant, what the core owes (nothing), and each window's
    current staging buffer at the contents `Y` it then holds, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6))

/-- and what it returns: the same, each staging buffer at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X))

/-- The body at any point: the seven staging buffers and the scratch accumulator (out of the invariant) are lent
    to the run, which needs nothing of their contents, and are taken back at whatever it leaves; the generator
    register and what the core owes are not touched. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost
  rw [show (rdat m c).Φ t.castSucc = Pipeline.ΦA spec0 c from rfl, show (rdat m c).Φ t.succ = Pipeline.ΦA spec0 c from rfl,
    show (rdat m c).owesAt () t.succ = (rdat m c).owesAt () t.castSucc from rfl, PhiA_eq]
  iintro ⟨⟨HS, Hg⟩, Ho, H0, H1, H2, H3, H4, H5, H6⟩
  iapply (kernelRun c (grid0.coords t) (ms0 t) (hs0 t) (ms1 t) (hs1 t) (ms2 t) (hs2 t) (ms3 t) (hs3 t) (ms4 t) (hs4 t) (ms5 t) (hs5 t) (ms6 t) (hs6 t) scM (Memref.isWhole_whole _) Set.univ _)
  isplitl [H0 H1 H2 H3 H4 H5 H6 HS]
  · unfold held
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact HS
  unfold held
  iintro ⟨⟨%X0, H0⟩, ⟨%X1, H1⟩, ⟨%X2, H2⟩, ⟨%X3, H3⟩, ⟨%X4, H4⟩, ⟨%X5, H5⟩, ⟨%X6, H6⟩, HS⟩
  isplitl [HS Hg]
  · isplitl [HS]; · iexact HS
    iexact Hg
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  isplitl [H3]
  · iexists X3; isplitr; · ipureintro; trivial
    iexact H3
  isplitl [H4]
  · iexists X4; isplitr; · ipureintro; trivial
    iexact H4
  isplitl [H5]
  · iexists X5; isplitr; · ipureintro; trivial
    iexact H5
  · iexists X6; isplitr; · ipureintro; trivial
    iexact H6

/-- The library's body obligation of the relational data, at every point: what the buffers may hold is not used. -/
theorem body_obligation (c : Dev nD) : (rdat (F := F) m c).BodyObligation (defs₀ (F := F)) Variants.none () Set.univ := fun t Y _ => by
  rw [bigSep_W0, bigSep_W0]
  exact sound_body m c t Y

/-! ## The run and the frame -/

/-- At the compiled mesh, for any values, from any memory with zero counters: every weakly fair execution of @main
    on the TensorCores terminates, every input window's array may hold only what it held when the region was
    entered, and every unscoped buffer that is no window's array holds what it held then. -/
theorem run_main : θ_run defs (onTc (τ := τ) (main (F := F))) (s₀ m ρ) (Pipeline.RDat.FramePost (cfgs 0) (rdat m) (V m)) :=
  Pipeline.RDat.θ_run_frame cfgs (0 : Fin 1) launch0 defs₀ Variants.none (rdat m) m ρ main
    (hbody := fun c => body_obligation m c) (hshare := fun c => (rdat m c).share_full fun _ => rfl)
    (howed := fun _ _ => rfl) (V := V m) (hmain := hmain m Variants.none) (hA := A_eq m) (hΦ := fun _ _ => rfl)

/-- An input window's array after the region: the pipeline never writes it, so it holds its entry contents. -/
theorem arr_in (c : Dev nD) (w : Fin cfg0.W) (hin : (cfg0.win w).isOut = false)
    (G : Buf (Elt F) ((cfg0.win w).arr.view.loc (c.tc : Thread nD τ))) (h : (rdat m c).ArrAt w cfg0.N G) :
    G = V m c (Pipeline.arrRef spec0 w) := by
  rw [(rdat m c).ArrAt_in w hin] at h
  exact h.trans (A_eq m c w)

/-- THE FRAME at any float instance: the run's post read at the six argument arrays. The activations, the quantized
    weights and the noise are arrays of input windows 0, 1 and 4; the scales, the zero points and the bias are staged
    only through the host operations' results, so they are among the buffers that bypass the region; and each
    argument is, at the region's entry, what it was at launch, since no host operation writes it. -/
theorem frameF : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arr_in m c 0 rfl _ ((h c).1 0)).trans (V_main_arg0 m c),
      (arr_in m c 1 rfl _ ((h c).1 1)).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (arr_in m c 4 rfl _ ((h c).1 4)).trans (V_main_arg5 m c)⟩) (run_main m ρ)

/-- The frame claim of the word-level program: the frame at the bit-exact instance; the precondition is not needed. -/
theorem frame : Cert.frame_Kernel := fun m ρ _ => frameF (F := Bits) m ρ

end Cert.KernelFrame

end
-- ==== Proof.Spec.lean ====
/-
  The specification both programs are compared against: the result as ONE function of the argument arrays,
  index by index, on the extended reals.

  A weight row `o` is stored quantized: feature `i` belongs to group `i / 128`, and its dequantized value is
  `(q[o,i] - zero[o, i/128]) * scale[o, i/128]`. Relative noise is added to it, `w + noise[o,i] * (c * |w|)` with
  `c` the float nearest to 0.05, and the layer is linear: `out[b,o] = (∑ i, x[b,i] * wNoisy[o,i]) + bias[o]`.
-/
import Idealize.ShloMosaic.PureOps.Ideal
import Idealize.ShloMosaic.Lib.ValueIdx

noncomputable section

open scoped BigOperators

namespace Cert.Spec

open Idealize.ShloMosaic Idealize.ShloMosaic.ValueIdx

/-- The activations' shape, [4096, 4096]. -/
abbrev SX : Shape := ⟨2, ![4096, 4096]⟩
/-- The quantized weights' and the noise's shape, [11008, 4096]. -/
abbrev SQ : Shape := ⟨2, ![11008, 4096]⟩
/-- The scales' and zero points' shape, [11008, 32]: one entry per output feature and group. -/
abbrev SG : Shape := ⟨2, ![11008, 32]⟩
/-- The bias's shape, [11008]. -/
abbrev SB : Shape := ⟨1, ![11008]⟩
/-- The result's shape, [4096, 11008]. -/
abbrev SO : Shape := ⟨2, ![4096, 11008]⟩

/-- The group of an input feature: 128 consecutive features share one scale and one zero point. -/
def grp (i : Fin 4096) : Fin 32 := ⟨i.val / 128, by have := i.isLt; omega⟩

/-- The relative noise level, the float nearest to 0.05, as the extended real it denotes. -/
def noiseLevel : EReal := Ideal.ofBits .f32 0x3D4CCCCD#32

/-- The dequantized weight of output feature `o` at input feature `i`. -/
def deq (q : SQ.Idx → BitVec 32) (sc ze : SG.Idx → EReal) (o : Fin 11008) (i : Fin 4096) : EReal :=
  ((FloatOps.sitofp (F := Ideal) .f32 (q (ix2 o i)) : EReal) - ze (ix2 o (grp i))) * sc (ix2 o (grp i))

/-- The noisy weight: the dequantized weight plus the noise scaled by a fixed fraction of its magnitude. -/
def noisy (q : SQ.Idx → BitVec 32) (sc ze : SG.Idx → EReal) (nz : SQ.Idx → EReal) (o : Fin 11008) (i : Fin 4096) : EReal :=
  deq q sc ze o i + nz (ix2 o i) * (noiseLevel * (FloatOps.absf (F := Ideal) (φ := .f32) (deq q sc ze o i) : EReal))

/-- The layer's result: each row of activations against each noisy weight row, plus the bias. -/
def G (x : SX.Idx → EReal) (q : SQ.Idx → BitVec 32) (sc ze : SG.Idx → EReal) (b : SB.Idx → EReal) (nz : SQ.Idx → EReal) :
    SO.Idx → EReal :=
  fun j => (∑ i : Fin 4096, x (ix2 (j 0) i) * noisy q sc ze nz (j 1) i) + b (ix1 (j 1))

end Cert.Spec

end
-- ==== Proof.RefIsSpec.lean ====
/-
  The reference program computes the specification.

  The reference dequantizes the whole weight matrix before it multiplies. It views the quantized weights
  [11008, 4096] as [11008, 32, 128] (row-major, so feature `i` of a row lands in group `i / 128` at lane
  `i % 128`), converts them to floats, subtracts the zero points and multiplies by the scales (each stored
  per row and group, and repeated along the 128 lanes), and views the result as [11008, 4096] again. The two
  changes of view cancel: entry `(o, i)` of the dequantized matrix is
  `(q[o, i] - zero[o, i / 128]) * scale[o, i / 128]`. To that it adds the noise times a fixed fraction of the
  entry's magnitude, contracts the activations against the rows of the noisy matrix, and adds the bias
  along the rows. Read at one index, each stage is the corresponding piece of `Cert.Spec`; nothing but
  unfolding and the arithmetic of `i = (i / 128) * 128 + i % 128` is used, so no finiteness is needed.
-/
import proofs.«104597_j16475494548100_1_alg».proof.Defs
import proofs.«104597_j16475494548100_1_alg».proof.Proof.Gen.Pre_finite_inputs
import proofs.«104597_j16475494548100_1_alg».proof.Proof.Gen.ReferenceIdeal.Read
import proofs.«104597_j16475494548100_1_alg».proof.Proof.Spec

noncomputable section

open scoped BigOperators

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The lane of an input feature inside its group of 128. -/
def lane (i : Fin 4096) : Fin 128 := ⟨i.val % 128, Nat.mod_lt _ (by decide)⟩

/-! ## Where each stage reads its operand -/

/-- Viewing [11008, 32, 128] as [11008, 4096]: entry `(o, i)` is entry `(o, i / 128, i % 128)`. -/
theorem idx_flat (o : Fin 11008) (i : Fin 4096) :
    idx_main_v8 (ix2 o i) = ix3 o (Cert.Spec.grp i) (lane i) :=
  funext fun a => Fin.ext (by
    have ho := o.isLt
    have hi := i.isLt
    match a with
    | ⟨0, _⟩ => show (o.val * 4096 + i.val) / 4096 = o.val; omega
    | ⟨1, _⟩ => show (o.val * 4096 + i.val) / 128 % 32 = i.val / 128; omega
    | ⟨2, _⟩ => show (o.val * 4096 + i.val) % 128 = i.val % 128; omega)

/-- Viewing [11008, 4096] as [11008, 32, 128]: entry `(o, i / 128, i % 128)` is entry `(o, i)`. -/
theorem idx_grouped (o : Fin 11008) (i : Fin 4096) :
    idx_main_v0 (ix3 o (Cert.Spec.grp i) (lane i)) = ix2 o i :=
  funext fun a => Fin.ext (by
    have ho := o.isLt
    have hi := i.isLt
    match a with
    | ⟨0, _⟩ => show ((o.val * 32 + i.val / 128) * 128 + i.val % 128) / 4096 = o.val; omega
    | ⟨1, _⟩ => show ((o.val * 32 + i.val / 128) * 128 + i.val % 128) % 4096 = i.val; omega)

/-- The zero points, repeated along the lanes, are read at the row and the group. -/
theorem idx_zero (o : Fin 11008) (g : Fin 32) (l : Fin 128) :
    idx_main_v2 (idx_main_v3 (ix3 o g l)) = ix2 o g :=
  funext fun a => Fin.ext (by
    match a with
    | ⟨0, _⟩ => rfl
    | ⟨1, _⟩ => rfl)

/-- The scales, repeated along the lanes, are read at the row and the group. -/
theorem idx_scale (o : Fin 11008) (g : Fin 32) (l : Fin 128) :
    idx_main_v5 (idx_main_v6 (ix3 o g l)) = ix2 o g :=
  funext fun a => Fin.ext (by
    match a with
    | ⟨0, _⟩ => rfl
    | ⟨1, _⟩ => rfl)

/-- The contraction reads the activations at the result's row and the summed feature. -/
theorem idx_lhs (b : Fin 4096) (o : Fin 11008) (i : Fin 4096) :
    lidx_main_v14 (ix2 b o) i = ix2 b i :=
  funext fun a => Fin.ext (by
    match a with
    | ⟨0, _⟩ => rfl
    | ⟨1, _⟩ => rfl)

/-- The contraction reads the weights at the result's column and the summed feature. -/
theorem idx_rhs (b : Fin 4096) (o : Fin 11008) (i : Fin 4096) :
    ridx_main_v14 (ix2 b o) i = ix2 o i :=
  funext fun a => Fin.ext (by
    match a with
    | ⟨0, _⟩ => rfl
    | ⟨1, _⟩ => rfl)

/-- The bias, repeated along the rows, is read at the result's column. -/
theorem idx_bias (b : Fin 4096) (o : Fin 11008) :
    idx_main_v15 (idx_main_v16 (ix2 b o)) = ix1 o :=
  funext fun a => Fin.ext (by
    match a with
    | ⟨0, _⟩ => rfl)

/-! ## The stages at an index -/

/-- The dequantized matrix of the reference, entry by entry: the two changes of view cancel. -/
theorem deq_eq (x1 : (⟨S11008x4096, .i32⟩ : BufTy).Contents (Elt Ideal))
    (x2 x3 : (⟨S11008x32, .f32⟩ : BufTy).Contents (Elt Ideal)) (o : Fin 11008) (i : Fin 4096) :
    val_main_v8 (F := Ideal) x1 x2 x3 (ix2 o i) = Cert.Spec.deq x1 x2 x3 o i := by
  rw [val_main_v8_apply, idx_flat, val_main_v7_apply, val_main_v4_apply, val_main_v1_apply, val_main_v0_apply,
    val_main_v3_apply, val_main_v2_apply, val_main_v6_apply, val_main_v5_apply, idx_grouped, idx_zero, idx_scale]
  simp only [Ideal.mulf_def, Ideal.subf_def]
  rfl

/-- The noisy matrix of the reference, entry by entry. -/
theorem noisy_eq (x1 : (⟨S11008x4096, .i32⟩ : BufTy).Contents (Elt Ideal))
    (x2 x3 : (⟨S11008x32, .f32⟩ : BufTy).Contents (Elt Ideal))
    (x5 : (⟨S11008x4096, .f32⟩ : BufTy).Contents (Elt Ideal)) (o : Fin 11008) (i : Fin 4096) :
    val_main_v13 (F := Ideal) x1 x2 x3 x5 (ix2 o i) = Cert.Spec.noisy x1 x2 x3 x5 o i := by
  rw [val_main_v13_apply, val_main_v12_apply, val_main_v11_apply, val_main_v10_apply, val_main_cst_apply,
    val_main_v9_apply, deq_eq]
  simp only [Ideal.addf_def, Ideal.mulf_def, Ideal.hostAbsf_def, Ideal.ofBits_def]
  rfl

/-- The reference's last stage is the specification, index by index. -/
theorem ref_eq (x0 : (⟨S4096x4096, .f32⟩ : BufTy).Contents (Elt Ideal))
    (x1 : (⟨S11008x4096, .i32⟩ : BufTy).Contents (Elt Ideal))
    (x2 x3 : (⟨S11008x32, .f32⟩ : BufTy).Contents (Elt Ideal))
    (x4 : (⟨S11008, .f32⟩ : BufTy).Contents (Elt Ideal))
    (x5 : (⟨S11008x4096, .f32⟩ : BufTy).Contents (Elt Ideal)) :
    val_main_v17 (F := Ideal) x0 x1 x2 x3 x4 x5 = Cert.Spec.G x0 x1 x2 x3 x4 x5 := by
  funext j
  obtain ⟨b, o, rfl⟩ : ∃ (b : Fin 4096) (o : Fin 11008), j = ix2 b o := ⟨j 0, j 1, eq_ix2 j⟩
  rw [val_main_v17_apply, val_main_v14_apply, val_main_v16_apply, val_main_v15_apply, idx_bias]
  simp only [Ideal.addf_def]
  refine congrArg (· + x4 (ix1 o)) (Finset.sum_congr rfl fun i _ => ?_)
  rw [idx_lhs, idx_rhs, noisy_eq]

/-! ## The reference's run -/

/-- On every device, from any memory: the reference terminates with its result at the specification of the
    launch contents of its arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((val_main_v17_eq _ _ _ _ _ _).trans (ref_eq _ _ _ _ _ _)), (h c).2⟩)
    (Cert.ReferenceIdeal.Value.run (F := Ideal) m ρ)

/-- The reference runs and leaves its arguments unchanged: its run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.RefIsSpec

end
-- ==== Proof.IdealBody.lean ====
import proofs.«104597_j16475494548100_1_alg».proof.Proof.Gen.KernelIdeal.Frame
import proofs.«104597_j16475494548100_1_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! Two facts about whole-buffer accesses, over an abstract shape so that no extent is ever unfolded. -/
section WholeAccess

variable {Val : EltTy → Type} [∀ e, Nonempty (Val e)] {sig' : RefSig} {κ : Kind} {sp : Space} {S : Shape} {e : EltTy}

/-- After a list of stores whose LAST one writes the whole shape, the buffer reads that store's payload. -/
theorem read_store_last (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load of the whole shape from a whole buffer that reads `X` answers `X`. -/
theorem load_whole {M : Memref sig' κ sp S e} (hM : M.IsWhole) (X : S.Idx → Val e) {off : Fin S.rank → Nat} (h : off = fun _ => 0)
    (inb : ∀ a, off a + S.size a ≤ S.size a) :
    M.view.readAt Val (Rect.unit off S.size inb).toLoadRect (hM.unread X) = X := by
  rw [View.readAt_eq_ld, hM.read_unread, View.ld_unit_zero h]

end WholeAccess

/-! The kernel body at one grid point, at any float instance, on whole staging buffers at any contents.

The body depends on the point only through its position `k` along the reduction axis: at `k = 0` it first
clears the accumulator; at every point it adds to the accumulator the product of the point's block of
activations with the point's block of noisy dequantized weights (the payload `k0_pay3`: a function of the two
scale/zero-point blocks, the quantized weights, the noise, the activations and the accumulator it starts from);
at `k = 3` it stores the accumulator plus the bias block (`k0_pay1`) to the output's buffer, and elsewhere
leaves that buffer alone. Nothing else is written. -/

/-- The body's first branch is taken: the point is first along the reduction axis. -/
abbrev condReset (i : grid0.Coords) : Prop := (Scalar.cmpi .ne (Scalar.extui (Scalar.cmpi .eq (BitVec.ofNat 32 (i 2).val) 0#32)) 0#32) = 1#1
/-- The body's second branch is taken: the point is last along the reduction axis. -/
abbrev condStore (i : grid0.Coords) : Prop := k0_cond2 i = 1#1

/-- The first branch is taken exactly at the points whose position along the reduction axis is 0. -/
theorem hcondReset : ∀ t : Fin cfg0.N, condReset (grid0.coords t) ↔ t.val % 4 = 0 :=
  (by decide +kernel : ∀ t : Fin grid0.N, condReset (grid0.coords t) ↔ t.val % 4 = 0)
/-- The second branch is taken exactly at the points whose position along the reduction axis is 3. -/
theorem hcondStore : ∀ t : Fin cfg0.N, condStore (grid0.coords t) ↔ t.val % 4 = 3 :=
  (by decide +kernel : ∀ t : Fin grid0.N, condStore (grid0.coords t) ↔ t.val % 4 = 3)

/-- At a first point the accumulator restarts from the cleared block; the output's buffer is untouched. -/
theorem run_first (c : Dev nD) (i : grid0.Coords)
    (arg3 : Memref sig .tc .vmem S1408x1024 .f32) (harg3 : arg3.IsWhole) (arg4 : Memref sig .tc .vmem S512x1024 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S512x1024 .f32) (harg7 : arg7.IsWhole) (arg8 : Memref sig .tc .vmem S1x512 .f32) (harg8 : arg8.IsWhole)
    (arg9 : Memref sig .tc .vmem S1408x512 .f32) (harg9 : arg9.IsWhole) (arg10 : Memref sig .tc .vmem S1408x512 .f32) (harg10 : arg10.IsWhole)
    (hc0 : condReset i) (hc1 : ¬condStore i)
    (X3 : Vec F S1408x1024 .f32) (X4 : Vec F S512x1024 .i32) (X5 X6 : Vec F S8x512 .f32) (X7 : Vec F S512x1024 .f32)
    (X8 : Vec F S1x512 .f32) (X9 XS : Vec F S1408x512 .f32) (E : Set ℕ) (K : PUnit → sProp 𝕄) :
    iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare X9 ∗ owns (c : Thread nD τ) arg10 fullShare XS
          ∗ (iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare X9 ∗ owns (c : Thread nD τ) arg10 fullShare (k0_pay3 X5 X6 X4 X7 X3 (k0_pay2 (F := F)))) -∗ K ⟨⟩))
      ⊢ wp frame (wpE (defs₀ (F := F)) Variants.none c none) E
          (cc0__kernel i arg3 harg3 arg4 harg4 arg5 harg5 arg6 harg6 arg7 harg7 arg8 harg8 arg9 harg9 arg10 harg10) K := by
  have hz : (![0, 0] : Fin 2 → Nat) = fun _ => 0 := funext fun a => by fin_cases a <;> rfl
  simp only [cc0__kernel_eq_skeleton]; unfold cc0__kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hfs
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  iexists _; isplitr
  pick_goal 2
  · iexact HS
  ipureintro
  try sl_unfold_words
  rw [read_store_last _ _ hz]
  sl_unfold_words
  rw [View.readCov_unit_zero _ hz]
  simp only [load_whole harg3 _ hz, load_whole harg4 _ hz, load_whole harg5 _ hz, load_whole harg6 _ hz, load_whole harg7 _ hz, load_whole harg8 _ hz, load_whole harg10 _ hz]

/-- At a middle point the accumulator grows by the point's product; the output's buffer is untouched. -/
theorem run_mid (c : Dev nD) (i : grid0.Coords)
    (arg3 : Memref sig .tc .vmem S1408x1024 .f32) (harg3 : arg3.IsWhole) (arg4 : Memref sig .tc .vmem S512x1024 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S512x1024 .f32) (harg7 : arg7.IsWhole) (arg8 : Memref sig .tc .vmem S1x512 .f32) (harg8 : arg8.IsWhole)
    (arg9 : Memref sig .tc .vmem S1408x512 .f32) (harg9 : arg9.IsWhole) (arg10 : Memref sig .tc .vmem S1408x512 .f32) (harg10 : arg10.IsWhole)
    (hc0 : ¬condReset i) (hc1 : ¬condStore i)
    (X3 : Vec F S1408x1024 .f32) (X4 : Vec F S512x1024 .i32) (X5 X6 : Vec F S8x512 .f32) (X7 : Vec F S512x1024 .f32)
    (X8 : Vec F S1x512 .f32) (X9 XS : Vec F S1408x512 .f32) (E : Set ℕ) (K : PUnit → sProp 𝕄) :
    iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare X9 ∗ owns (c : Thread nD τ) arg10 fullShare XS
          ∗ (iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare X9 ∗ owns (c : Thread nD τ) arg10 fullShare (k0_pay3 X5 X6 X4 X7 X3 XS)) -∗ K ⟨⟩))
      ⊢ wp frame (wpE (defs₀ (F := F)) Variants.none c none) E
          (cc0__kernel i arg3 harg3 arg4 harg4 arg5 harg5 arg6 harg6 arg7 harg7 arg8 harg8 arg9 harg9 arg10 harg10) K := by
  have hz : (![0, 0] : Fin 2 → Nat) = fun _ => 0 := funext fun a => by fin_cases a <;> rfl
  simp only [cc0__kernel_eq_skeleton]; unfold cc0__kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hfs
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  iexists _; isplitr
  pick_goal 2
  · iexact HS
  ipureintro
  try sl_unfold_words
  rw [read_store_last _ _ hz]
  simp only [load_whole harg3 _ hz, load_whole harg4 _ hz, load_whole harg5 _ hz, load_whole harg6 _ hz, load_whole harg7 _ hz, load_whole harg8 _ hz, load_whole harg10 _ hz]

/-- At a last point the accumulator grows by the point's product and the output's buffer receives it plus the bias block. -/
theorem run_last (c : Dev nD) (i : grid0.Coords)
    (arg3 : Memref sig .tc .vmem S1408x1024 .f32) (harg3 : arg3.IsWhole) (arg4 : Memref sig .tc .vmem S512x1024 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S512x1024 .f32) (harg7 : arg7.IsWhole) (arg8 : Memref sig .tc .vmem S1x512 .f32) (harg8 : arg8.IsWhole)
    (arg9 : Memref sig .tc .vmem S1408x512 .f32) (harg9 : arg9.IsWhole) (arg10 : Memref sig .tc .vmem S1408x512 .f32) (harg10 : arg10.IsWhole)
    (hc0 : ¬condReset i) (hc1 : condStore i)
    (X3 : Vec F S1408x1024 .f32) (X4 : Vec F S512x1024 .i32) (X5 X6 : Vec F S8x512 .f32) (X7 : Vec F S512x1024 .f32)
    (X8 : Vec F S1x512 .f32) (X9 XS : Vec F S1408x512 .f32) (E : Set ℕ) (K : PUnit → sProp 𝕄) :
    iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare X9 ∗ owns (c : Thread nD τ) arg10 fullShare XS
          ∗ (iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare (k0_pay1 (k0_pay3 X5 X6 X4 X7 X3 XS) X8) ∗ owns (c : Thread nD τ) arg10 fullShare (k0_pay3 X5 X6 X4 X7 X3 XS)) -∗ K ⟨⟩))
      ⊢ wp frame (wpE (defs₀ (F := F)) Variants.none c none) E
          (cc0__kernel i arg3 harg3 arg4 harg4 arg5 harg5 arg6 harg6 arg7 harg7 arg8 harg8 arg9 harg9 arg10 harg10) K := by
  have hz : (![0, 0] : Fin 2 → Nat) = fun _ => 0 := funext fun a => by fin_cases a <;> rfl
  simp only [cc0__kernel_eq_skeleton]; unfold cc0__kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hfs
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    pick_goal 2
    · iexact H9
    ipureintro
    try sl_unfold_words
    rw [read_store_last _ _ hz]
    sl_unfold_words
    rw [View.readCov_unit_zero _ hz]
    simp only [load_whole harg3 _ hz, load_whole harg4 _ hz, load_whole harg5 _ hz, load_whole harg6 _ hz, load_whole harg7 _ hz, load_whole harg8 _ hz, load_whole harg10 _ hz]
  iexists _; isplitr
  pick_goal 2
  · iexact HS
  ipureintro
  try sl_unfold_words
  rw [read_store_last _ _ hz]
  simp only [load_whole harg3 _ hz, load_whole harg4 _ hz, load_whole harg5 _ hz, load_whole harg6 _ hz, load_whole harg7 _ hz, load_whole harg8 _ hz, load_whole harg10 _ hz]

end Cert.KernelIdeal.Hand

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.IdealAcc.lean ====
/-
  The layer's sum over the 4096 input features, taken 1024 features at a time.

  The kernel walks the input features in four blocks of 1024 and keeps a running sum. `blockSum kb` is block
  `kb`'s contribution to entry (b, o), `acc k` the running sum after blocks 0..k, started from zero; after the
  fourth block it is the whole sum (addition on the extended reals is associative and commutative, so the
  grouping does not matter), and adding the bias gives the specified result.
-/
import proofs.«104597_j16475494548100_1_alg».proof.Proof.Spec
import proofs.«104597_j16475494548100_1_alg».proof.Proof.LibSumBlocks

noncomputable section

open scoped BigOperators

namespace Cert.Acc

open Idealize.ShloMosaic Idealize.ShloMosaic.ValueIdx Cert.Spec

/-- The input feature at position `j` of reduction block `kb` (for `kb < 4`: `1024 * kb + j`). -/
def feat (kb : ℕ) (j : Fin 1024) : Fin 4096 := ⟨(1024 * kb + j.val) % 4096, Nat.mod_lt _ (by norm_num)⟩

theorem feat_val (kb : ℕ) (hk : kb < 4) (j : Fin 1024) : (feat kb j).val = 1024 * kb + j.val := by
  show (1024 * kb + j.val) % 4096 = _
  have := j.isLt
  omega

section
variable (x : SX.Idx → EReal) (q : SQ.Idx → BitVec 32) (sc ze : SG.Idx → EReal) (nz : SQ.Idx → EReal)

/-- Reduction block `kb`'s contribution to entry (b, o): its 1024 products. -/
def blockSum (kb : ℕ) (b : Fin 4096) (o : Fin 11008) : EReal :=
  ∑ j : Fin 1024, x (ix2 b (feat kb j)) * noisy q sc ze nz o (feat kb j)

/-- The running sum after reduction blocks 0..k, started from zero. -/
def acc : ℕ → Fin 4096 → Fin 11008 → EReal
  | 0 => fun b o => 0 + blockSum x q sc ze nz 0 b o
  | k + 1 => fun b o => acc k b o + blockSum x q sc ze nz (k + 1) b o

theorem acc_zero (b : Fin 4096) (o : Fin 11008) : acc x q sc ze nz 0 b o = 0 + blockSum x q sc ze nz 0 b o := rfl
theorem acc_succ (k : ℕ) (b : Fin 4096) (o : Fin 11008) :
    acc x q sc ze nz (k + 1) b o = acc x q sc ze nz k b o + blockSum x q sc ze nz (k + 1) b o := rfl

/-- After the fourth block the running sum is the sum over all 4096 features. -/
theorem acc_three (b : Fin 4096) (o : Fin 11008) :
    acc x q sc ze nz 3 b o = ∑ i : Fin 4096, x (ix2 b i) * noisy q sc ze nz o i := by
  have e0 : ∀ j : Fin 1024, feat 0 j = ⟨j.val, by have := j.isLt; omega⟩ := fun j =>
    Fin.ext (by rw [feat_val 0 (by norm_num)]; show 1024 * 0 + j.val = j.val; omega)
  have e1 : ∀ j : Fin 1024, feat 1 j = ⟨1024 + j.val, by have := j.isLt; omega⟩ := fun j =>
    Fin.ext (by rw [feat_val 1 (by norm_num)])
  have e2 : ∀ j : Fin 1024, feat 2 j = ⟨2048 + j.val, by have := j.isLt; omega⟩ := fun j =>
    Fin.ext (by rw [feat_val 2 (by norm_num)])
  have e3 : ∀ j : Fin 1024, feat 3 j = ⟨3072 + j.val, by have := j.isLt; omega⟩ := fun j =>
    Fin.ext (by rw [feat_val 3 (by norm_num)])
  rw [← Cert.LibSumBlocks.sum_four_blocks (fun i : Fin 4096 => x (ix2 b i) * noisy q sc ze nz o i)]
  show (((0 + blockSum x q sc ze nz 0 b o) + blockSum x q sc ze nz 1 b o) + blockSum x q sc ze nz 2 b o)
      + blockSum x q sc ze nz 3 b o = _
  unfold blockSum
  simp only [e0, e1, e2, e3]

/-- The specified result is the running sum after the fourth block plus the bias. -/
theorem G_eq_acc (bias : SB.Idx → EReal) (j : SO.Idx) :
    G x q sc ze bias nz j = acc x q sc ze nz 3 (j 0) (j 1) + bias (ix1 (j 1)) := by
  exact (congrArg (· + bias (ix1 (j 1))) (acc_three x q sc ze nz (j 0) (j 1))).symm

end

end Cert.Acc

end
-- ==== Proof.IdealData.lean ====
/-
  The proof data of the idealized kernel's one pipeline, on the extended reals.

  After the body at a grid point each input's staging buffer still holds the point's block of its array (on the
  part of the block that lies inside the array; nothing is said outside it). The output's buffer, at a point that
  is last along the reduction axis, holds the point's block of the SPECIFIED result (again on the part inside the
  array). The scratch accumulator is tracked between points: after the point at position `k` along the reduction
  axis, every accumulator entry whose row and column fall inside the arrays is the running sum `acc k` of the
  entry it stands for. Entries outside the arrays are computed from words nothing names and are never written back.
-/
import proofs.«104597_j16475494548100_1_alg».proof.Proof.Gen.KernelIdeal.Frame
import proofs.«104597_j16475494548100_1_alg».proof.Proof.Gen.KernelIdeal.Points
import proofs.«104597_j16475494548100_1_alg».proof.Proof.IdealAcc
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The specified result of the arguments as launched, on core `c`. -/
def KG (c : Dev nD) : Buf (Elt Ideal) ((c : Thread nD τ).loc main_v3) :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The running sum of entry (b, o) after reduction blocks 0..k, of the arguments as launched. -/
def accOf (c : Dev nD) (k : ℕ) (b : Fin 4096) (o : Fin 11008) : EReal :=
  Cert.Acc.acc (m ((c : Thread nD τ).loc main_arg0)) (m ((c : Thread nD τ).loc main_arg1)) (m ((c : Thread nD τ).loc main_arg2))
    (m ((c : Thread nD τ).loc main_arg3)) (m ((c : Thread nD τ).loc main_arg5)) k b o

/-- An input window's block at a point, filled out past the array's end with words nothing reads. -/
def inBlk (c : Dev nD) (w : Fin cfg0.W) (t : Fin cfg0.N) : (cfg0.win w).block.Idx → Elt Ideal (cfg0.win w).elt :=
  (cfg0.win w).fill (grid0.coords t) (fun _ => Classical.arbitrary _) (iblk m c w t)

/-- The point's block of the specified result, filled out past the array's end likewise. -/
def outBlk (c : Dev nD) (t : Fin cfg0.N) : (cfg0.win 6).block.Idx → Elt Ideal (cfg0.win 6).elt :=
  (cfg0.win 6).fill (grid0.coords t) (fun _ => Classical.arbitrary _) (((cfg0.win 6).blk t).view.read (Elt Ideal) (KG m c))

/-- The scratch accumulator, as a memref. -/
abbrev scM : Memref sig .tc .vmem S1408x512 .f32 := Memref.whole cc0_scratch0

/-- What the accumulator holds after the body at point `t`: wherever its row and column stand for a row and a
    column of the arrays, the running sum after the point's reduction block. -/
def Inv (c : Dev nD) (t : Fin cfg0.N) (S : Vec Ideal S1408x512 .f32) : Prop :=
  ∀ (p : Fin 1408) (q : Fin 512) (b : Fin 4096) (o : Fin 11008),
    b.val = 1408 * (grid0.coords t 0).val + p.val → o.val = 512 * (grid0.coords t 1).val + q.val →
    S (ix2 p q) = accOf m c (grid0.coords t 2).val b o

/-- The region invariant before position `n`: before the first point the scratch holds anything; afterwards it
    holds contents satisfying `Inv` at the point before; the generator register is at some state throughout. -/
def PhiS (c : Dev nD) : (n : ℕ) → n ≤ cfg0.N → sProp 𝕄
  | 0, _ => Pipeline.ΦA spec0 c
  | n + 1, hn => iprop(iprop(∃ S, ⌜Inv m c ⟨n, hn⟩ S⌝ ∗ owns (c : Thread nD τ) scM fullShare S) ∗ (∃ r, prngReg c r))

theorem PhiS_zero (c : Dev nD) (h : 0 ≤ cfg0.N) : PhiS m c 0 h = Pipeline.ΦA spec0 c := rfl
theorem PhiS_succ (c : Dev nD) (n : ℕ) (hn : n < cfg0.N) :
    PhiS m c (n + 1) hn = iprop(iprop(∃ S, ⌜Inv m c ⟨n, hn⟩ S⌝ ∗ owns (c : Thread nD τ) scM fullShare S) ∗ (∃ r, prngReg c r)) := rfl

/-- The class invariant with the scratch buffer named. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => inBlk m c 0 t
    | ⟨1, _⟩ => inBlk m c 1 t
    | ⟨2, _⟩ => inBlk m c 2 t
    | ⟨3, _⟩ => inBlk m c 3 t
    | ⟨4, _⟩ => inBlk m c 4 t
    | ⟨5, _⟩ => inBlk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = inBlk m c 0 t := by dsimp only [dats]
theorem after_1 (c : Dev nD) (t : Fin cfg0.N) : (dats m 0 c).after 1 t = inBlk m c 1 t := by dsimp only [dats]
theorem after_2 (c : Dev nD) (t : Fin cfg0.N) : (dats m 0 c).after 2 t = inBlk m c 2 t := by dsimp only [dats]
theorem after_3 (c : Dev nD) (t : Fin cfg0.N) : (dats m 0 c).after 3 t = inBlk m c 3 t := by dsimp only [dats]
theorem after_4 (c : Dev nD) (t : Fin cfg0.N) : (dats m 0 c).after 4 t = inBlk m c 4 t := by dsimp only [dats]
theorem after_5 (c : Dev nD) (t : Fin cfg0.N) : (dats m 0 c).after 5 t = inBlk m c 5 t := by dsimp only [dats]
theorem after_6 (c : Dev nD) (t : Fin cfg0.N) : (dats m 0 c).after 6 t = outBlk m c t := by dsimp only [dats]

theorem Phi_castSucc (c : Dev nD) (t : Fin cfg0.N) :
    (dats m 0 c).Φ t.castSucc = PhiS m c t.val (Nat.le_of_lt t.isLt) := by
  dsimp only [dats]; simp only [Fin.coe_castSucc]
theorem Phi_succ (c : Dev nD) (t : Fin cfg0.N) :
    (dats m 0 c).Φ t.succ = PhiS m c (t.val + 1) t.isLt := by
  dsimp only [dats]; simp only [Fin.val_succ]

/-- An input fetched at the point holds its block on the part inside the array, and whatever the buffer held
    elsewhere. -/
theorem before_fetched (c : Dev nD) (w : Fin cfg0.W) (t : Fin cfg0.N) (hf : (cfg0.win w).fetch t = true) (d) :
    (dats m 0 c).before w t d = (cfg0.win w).fill (grid0.coords t) d (iblk m c w t) := by
  unfold Dat.before; rw [if_pos hf]; unfold Dat.fetched Dat.blockOf iblk; rw [A_eq]

end Cert.KernelIdeal.Hand

end
-- ==== Proof.IdealWindows.lean ====
/-
  The geometry of the seven windows on the grid of 3 x 22 x 4 points, decided once over its 264 points.

  A point's coordinates are (mi, ni, k): a block of rows, a block of output features, a block of the reduction.
  Each window's block index on each axis is one of these coordinates (or zero), and the part of a block that lies
  inside its array has, on each axis, the block's size or what is left of the array past the block's start,
  whichever is smaller. A block entry whose coordinates are all below these extents is inside the array, and a
  buffer filled from the array holds the array's entry there.
-/
import proofs.«104597_j16475494548100_1_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A filled buffer at an entry inside the array holds what it was filled with there. -/
theorem fill_inside {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-- The coordinates' ranges, as numbers. -/
theorem grid_bounds : ∀ t : Fin cfg0.N, (grid0.coords t 0).val < 3 ∧ (grid0.coords t 1).val < 22 ∧ (grid0.coords t 2).val < 4 :=
  (by decide +kernel : ∀ t : Fin grid0.N, _)

/-- Block indices and moved extents of the activations' window: block (mi, k) of 1408 rows by 1024 input features; the last row block is cut at row 4096. -/
theorem win0_geom : ∀ t : Fin cfg0.N,
    win0_0.index t (0 : Fin 2) = (grid0.coords t 0).val
    ∧ win0_0.index t (1 : Fin 2) = (grid0.coords t 2).val
    ∧ win0_0.xsize (grid0.coords t) (0 : Fin 2) = min 1408 (4096 - 1408 * (grid0.coords t 0).val)
    ∧ win0_0.xsize (grid0.coords t) (1 : Fin 2) = 1024 :=
  (by decide +kernel : ∀ t : Fin grid0.N, _)

/-- Block indices and moved extents of the quantized weights' window: block (ni, k) of 512 output features by 1024 input features; the last block of output features is cut at 11008. -/
theorem win1_geom : ∀ t : Fin cfg0.N,
    win0_1.index t (0 : Fin 2) = (grid0.coords t 1).val
    ∧ win0_1.index t (1 : Fin 2) = (grid0.coords t 2).val
    ∧ win0_1.xsize (grid0.coords t) (0 : Fin 2) = min 512 (11008 - 512 * (grid0.coords t 1).val)
    ∧ win0_1.xsize (grid0.coords t) (1 : Fin 2) = 1024 :=
  (by decide +kernel : ∀ t : Fin grid0.N, _)

/-- Block indices and moved extents of the transposed scales' window: block (k, ni) of 8 groups by 512 output features. -/
theorem win2_geom : ∀ t : Fin cfg0.N,
    win0_2.index t (0 : Fin 2) = (grid0.coords t 2).val
    ∧ win0_2.index t (1 : Fin 2) = (grid0.coords t 1).val
    ∧ win0_2.xsize (grid0.coords t) (0 : Fin 2) = 8
    ∧ win0_2.xsize (grid0.coords t) (1 : Fin 2) = min 512 (11008 - 512 * (grid0.coords t 1).val) :=
  (by decide +kernel : ∀ t : Fin grid0.N, _)

/-- Block indices and moved extents of the transposed zero points' window, laid out as the scales'. -/
theorem win3_geom : ∀ t : Fin cfg0.N,
    win0_3.index t (0 : Fin 2) = (grid0.coords t 2).val
    ∧ win0_3.index t (1 : Fin 2) = (grid0.coords t 1).val
    ∧ win0_3.xsize (grid0.coords t) (0 : Fin 2) = 8
    ∧ win0_3.xsize (grid0.coords t) (1 : Fin 2) = min 512 (11008 - 512 * (grid0.coords t 1).val) :=
  (by decide +kernel : ∀ t : Fin grid0.N, _)

/-- Block indices and moved extents of the noise's window, laid out as the quantized weights'. -/
theorem win4_geom : ∀ t : Fin cfg0.N,
    win0_4.index t (0 : Fin 2) = (grid0.coords t 1).val
    ∧ win0_4.index t (1 : Fin 2) = (grid0.coords t 2).val
    ∧ win0_4.xsize (grid0.coords t) (0 : Fin 2) = min 512 (11008 - 512 * (grid0.coords t 1).val)
    ∧ win0_4.xsize (grid0.coords t) (1 : Fin 2) = 1024 :=
  (by decide +kernel : ∀ t : Fin grid0.N, _)

/-- Block indices and moved extents of the bias row's window: block (0, ni) of one row by 512 output features. -/
theorem win5_geom : ∀ t : Fin cfg0.N,
    win0_5.index t (0 : Fin 2) = 0
    ∧ win0_5.index t (1 : Fin 2) = (grid0.coords t 1).val
    ∧ win0_5.xsize (grid0.coords t) (0 : Fin 2) = 1
    ∧ win0_5.xsize (grid0.coords t) (1 : Fin 2) = min 512 (11008 - 512 * (grid0.coords t 1).val) :=
  (by decide +kernel : ∀ t : Fin grid0.N, _)

/-- Block indices and moved extents of the result's window: block (mi, ni) of 1408 rows by 512 output features, cut on both axes at the array's end. -/
theorem win6_geom : ∀ t : Fin cfg0.N,
    win0_6.index t (0 : Fin 2) = (grid0.coords t 0).val
    ∧ win0_6.index t (1 : Fin 2) = (grid0.coords t 1).val
    ∧ win0_6.xsize (grid0.coords t) (0 : Fin 2) = min 1408 (4096 - 1408 * (grid0.coords t 0).val)
    ∧ win0_6.xsize (grid0.coords t) (1 : Fin 2) = min 512 (11008 - 512 * (grid0.coords t 1).val) :=
  (by decide +kernel : ∀ t : Fin grid0.N, _)

/-- The bias row's window does not move along the reduction axis: at a point that is not first along it, the point
    before has the same block index and the same moved extents. -/
theorem win5_prev : ∀ t : Fin cfg0.N, ¬t.val % 4 = 0 →
    win0_5.index (⟨t.val - 1, Nat.lt_of_le_of_lt (Nat.sub_le _ _) t.isLt⟩ : Fin grid0.N) (0 : Fin 2) = win0_5.index t (0 : Fin 2)
    ∧ win0_5.index (⟨t.val - 1, Nat.lt_of_le_of_lt (Nat.sub_le _ _) t.isLt⟩ : Fin grid0.N) (1 : Fin 2) = win0_5.index t (1 : Fin 2)
    ∧ win0_5.xsize (grid0.coords (⟨t.val - 1, Nat.lt_of_le_of_lt (Nat.sub_le _ _) t.isLt⟩ : Fin grid0.N)) (0 : Fin 2) = win0_5.xsize (grid0.coords t) (0 : Fin 2)
    ∧ win0_5.xsize (grid0.coords (⟨t.val - 1, Nat.lt_of_le_of_lt (Nat.sub_le _ _) t.isLt⟩ : Fin grid0.N)) (1 : Fin 2) = win0_5.xsize (grid0.coords t) (1 : Fin 2) :=
  (by decide +kernel : ∀ t : Fin grid0.N, _)

end Cert.KernelIdeal.Hand

end
-- ==== Proof.IdealEntries.lean ====
/-
  The staging buffers read at an entry: at a grid point with coordinates (mi, ni, k), an entry of a window's
  staging buffer whose row and column stand for a row and a column of the window's array holds that array's
  entry. Rows of the activations' block are rows 1408 * mi + p of the activations; rows of the weight-side blocks
  are output features 512 * ni + q; columns are input features 1024 * k + j; the scale and zero-point blocks are
  blocks of the TRANSPOSED tables, so their entry (g, q) is the table's entry (512 * ni + q, 8 * k + g).
-/
import proofs.«104597_j16475494548100_1_alg».proof.Proof.IdealData
import proofs.«104597_j16475494548100_1_alg».proof.Proof.IdealWindows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The activations' buffer at an entry inside the array. -/
theorem x_entry (c : Dev nD) (t : Fin cfg0.N) (d0) (p : Fin 1408) (jj : Fin 1024) (b : Fin 4096)
    (hb : b.val = 1408 * (grid0.coords t 0).val + p.val) :
    ((dats m 0 c).before 0 t d0 : Vec Ideal S1408x1024 .f32) (ix2 p jj)
      = (m ((c : Thread nD τ).loc main_arg0) : Vec Ideal S4096x4096 .f32) (ix2 b (Cert.Acc.feat (grid0.coords t 2).val jj)) := by
  obtain ⟨e0, e1, x0, x1⟩ := win0_geom t
  obtain ⟨hm, hn, hk⟩ := grid_bounds t
  have hr : p.val < 1408 := p.isLt
  have hjj : jj.val < 1024 := jj.isLt
  have hout : b.val < 4096 := b.isLt
  have hf := Cert.Acc.feat_val (grid0.coords t 2).val hk jj
  have hlt : ∀ a : Fin 2, ((ix2 p jj : S1408x1024.Idx) a).val < win0_0.xsize (grid0.coords t) a := fun a => by
    match a with
    | ⟨0, _⟩ => show p.val < win0_0.xsize (grid0.coords t) (0 : Fin 2); rw [x0]; omega
    | ⟨1, _⟩ => show jj.val < win0_0.xsize (grid0.coords t) (1 : Fin 2); rw [x1]; omega
  refine (congrFun (before_fetched m c 0 t (fetch0_0 t) d0) (ix2 p jj)).trans ?_
  refine (fill_inside win0_0 (grid0.coords t) d0 (iblk m c 0 t) (ix2 p jj) hlt).trans ?_
  show V m c main_arg0 (((cfg0.win 0).blk t).view.emb _) = _
  rw [V_main_arg0]
  congr 1
  funext a; apply Fin.ext
  match a with
  | ⟨0, _⟩ => show win0_0.index t (0 : Fin 2) * 1408 + 1 * p.val = b.val; omega
  | ⟨1, _⟩ => show win0_0.index t (1 : Fin 2) * 1024 + 1 * jj.val = (Cert.Acc.feat (grid0.coords t 2).val jj).val; omega

/-- The quantized weights' buffer at an entry inside the array. -/
theorem q_entry (c : Dev nD) (t : Fin cfg0.N) (d1) (q : Fin 512) (jj : Fin 1024) (o : Fin 11008)
    (ho : o.val = 512 * (grid0.coords t 1).val + q.val) :
    ((dats m 0 c).before 1 t d1 : Vec Ideal S512x1024 .i32) (ix2 q jj)
      = (m ((c : Thread nD τ).loc main_arg1) : Vec Ideal S11008x4096 .i32) (ix2 o (Cert.Acc.feat (grid0.coords t 2).val jj)) := by
  obtain ⟨e0, e1, x0, x1⟩ := win1_geom t
  obtain ⟨hm, hn, hk⟩ := grid_bounds t
  have hr : q.val < 512 := q.isLt
  have hjj : jj.val < 1024 := jj.isLt
  have hout : o.val < 11008 := o.isLt
  have hf := Cert.Acc.feat_val (grid0.coords t 2).val hk jj
  have hlt : ∀ a : Fin 2, ((ix2 q jj : S512x1024.Idx) a).val < win0_1.xsize (grid0.coords t) a := fun a => by
    match a with
    | ⟨0, _⟩ => show q.val < win0_1.xsize (grid0.coords t) (0 : Fin 2); rw [x0]; omega
    | ⟨1, _⟩ => show jj.val < win0_1.xsize (grid0.coords t) (1 : Fin 2); rw [x1]; omega
  refine (congrFun (before_fetched m c 1 t (fetch0_1 t) d1) (ix2 q jj)).trans ?_
  refine (fill_inside win0_1 (grid0.coords t) d1 (iblk m c 1 t) (ix2 q jj) hlt).trans ?_
  show V m c main_arg1 (((cfg0.win 1).blk t).view.emb _) = _
  rw [V_main_arg1]
  congr 1
  funext a; apply Fin.ext
  match a with
  | ⟨0, _⟩ => show win0_1.index t (0 : Fin 2) * 512 + 1 * q.val = o.val; omega
  | ⟨1, _⟩ => show win0_1.index t (1 : Fin 2) * 1024 + 1 * jj.val = (Cert.Acc.feat (grid0.coords t 2).val jj).val; omega

/-- The scales' buffer (a block of the transposed table) at an entry inside the array. -/
theorem scale_entry (c : Dev nD) (t : Fin cfg0.N) (d2) (g : Fin 8) (q : Fin 512) (o : Fin 11008) (gg : Fin 32)
    (ho : o.val = 512 * (grid0.coords t 1).val + q.val) (hg : gg.val = 8 * (grid0.coords t 2).val + g.val) :
    ((dats m 0 c).before 2 t d2 : Vec Ideal S8x512 .f32) (ix2 g q)
      = (m ((c : Thread nD τ).loc main_arg2) : Vec Ideal S11008x32 .f32) (ix2 o gg) := by
  obtain ⟨e0, e1, x0, x1⟩ := win2_geom t
  obtain ⟨hm, hn, hk⟩ := grid_bounds t
  have hgl : g.val < 8 := g.isLt
  have hql : q.val < 512 := q.isLt
  have hol : o.val < 11008 := o.isLt
  have hlt : ∀ a : Fin 2, ((ix2 g q : S8x512.Idx) a).val < win0_2.xsize (grid0.coords t) a := fun a => by
    match a with
    | ⟨0, _⟩ => show g.val < win0_2.xsize (grid0.coords t) (0 : Fin 2); rw [x0]; omega
    | ⟨1, _⟩ => show q.val < win0_2.xsize (grid0.coords t) (1 : Fin 2); rw [x1]; omega
  -- the window's array is the transposed table
  have e : (V m c main_v0 : S32x11008.Idx → EReal)
      = transpose S32x11008 [1, 0] (m ((c : Thread nD τ).loc main_arg2)) transposes_S11008x32_S32x11008_1_0 := by
    dsimp only [Gen.V, Gen.hostOps0]; after_results
  refine (congrFun (before_fetched m c 2 t (fetch0_2 t) d2) (ix2 g q)).trans ?_
  refine (fill_inside win0_2 (grid0.coords t) d2 (iblk m c 2 t) (ix2 g q) hlt).trans ?_
  show (V m c main_v0 : S32x11008.Idx → EReal) (((cfg0.win 2).blk t).view.emb _) = _
  rw [e]
  refine transpose_apply [1, 0] _ transposes_S11008x32_S32x11008_1_0 _ (ix2 o gg) fun b => ?_
  match b with
  | ⟨0, _⟩ => show gg.val = win0_2.index t (0 : Fin 2) * 8 + 1 * g.val; omega
  | ⟨1, _⟩ => show o.val = win0_2.index t (1 : Fin 2) * 512 + 1 * q.val; omega

/-- The zero points' buffer likewise. -/
theorem zero_entry (c : Dev nD) (t : Fin cfg0.N) (d3) (g : Fin 8) (q : Fin 512) (o : Fin 11008) (gg : Fin 32)
    (ho : o.val = 512 * (grid0.coords t 1).val + q.val) (hg : gg.val = 8 * (grid0.coords t 2).val + g.val) :
    ((dats m 0 c).before 3 t d3 : Vec Ideal S8x512 .f32) (ix2 g q)
      = (m ((c : Thread nD τ).loc main_arg3) : Vec Ideal S11008x32 .f32) (ix2 o gg) := by
  obtain ⟨e0, e1, x0, x1⟩ := win3_geom t
  obtain ⟨hm, hn, hk⟩ := grid_bounds t
  have hgl : g.val < 8 := g.isLt
  have hql : q.val < 512 := q.isLt
  have hol : o.val < 11008 := o.isLt
  have hlt : ∀ a : Fin 2, ((ix2 g q : S8x512.Idx) a).val < win0_3.xsize (grid0.coords t) a := fun a => by
    match a with
    | ⟨0, _⟩ => show g.val < win0_3.xsize (grid0.coords t) (0 : Fin 2); rw [x0]; omega
    | ⟨1, _⟩ => show q.val < win0_3.xsize (grid0.coords t) (1 : Fin 2); rw [x1]; omega
  -- the window's array is the transposed table
  have e : (V m c main_v1 : S32x11008.Idx → EReal)
      = transpose S32x11008 [1, 0] (m ((c : Thread nD τ).loc main_arg3)) transposes_S11008x32_S32x11008_1_0 := by
    dsimp only [Gen.V, Gen.hostOps0]; after_results
  refine (congrFun (before_fetched m c 3 t (fetch0_3 t) d3) (ix2 g q)).trans ?_
  refine (fill_inside win0_3 (grid0.coords t) d3 (iblk m c 3 t) (ix2 g q) hlt).trans ?_
  show (V m c main_v1 : S32x11008.Idx → EReal) (((cfg0.win 3).blk t).view.emb _) = _
  rw [e]
  refine transpose_apply [1, 0] _ transposes_S11008x32_S32x11008_1_0 _ (ix2 o gg) fun b => ?_
  match b with
  | ⟨0, _⟩ => show gg.val = win0_3.index t (0 : Fin 2) * 8 + 1 * g.val; omega
  | ⟨1, _⟩ => show o.val = win0_3.index t (1 : Fin 2) * 512 + 1 * q.val; omega

/-- The noise's buffer at an entry inside the array. -/
theorem noise_entry (c : Dev nD) (t : Fin cfg0.N) (d4) (q : Fin 512) (jj : Fin 1024) (o : Fin 11008)
    (ho : o.val = 512 * (grid0.coords t 1).val + q.val) :
    ((dats m 0 c).before 4 t d4 : Vec Ideal S512x1024 .f32) (ix2 q jj)
      = (m ((c : Thread nD τ).loc main_arg5) : Vec Ideal S11008x4096 .f32) (ix2 o (Cert.Acc.feat (grid0.coords t 2).val jj)) := by
  obtain ⟨e0, e1, x0, x1⟩ := win4_geom t
  obtain ⟨hm, hn, hk⟩ := grid_bounds t
  have hr : q.val < 512 := q.isLt
  have hjj : jj.val < 1024 := jj.isLt
  have hout : o.val < 11008 := o.isLt
  have hf := Cert.Acc.feat_val (grid0.coords t 2).val hk jj
  have hlt : ∀ a : Fin 2, ((ix2 q jj : S512x1024.Idx) a).val < win0_4.xsize (grid0.coords t) a := fun a => by
    match a with
    | ⟨0, _⟩ => show q.val < win0_4.xsize (grid0.coords t) (0 : Fin 2); rw [x0]; omega
    | ⟨1, _⟩ => show jj.val < win0_4.xsize (grid0.coords t) (1 : Fin 2); rw [x1]; omega
  refine (congrFun (before_fetched m c 4 t (fetch0_4 t) d4) (ix2 q jj)).trans ?_
  refine (fill_inside win0_4 (grid0.coords t) d4 (iblk m c 4 t) (ix2 q jj) hlt).trans ?_
  show V m c main_arg5 (((cfg0.win 4).blk t).view.emb _) = _
  rw [V_main_arg5]
  congr 1
  funext a; apply Fin.ext
  match a with
  | ⟨0, _⟩ => show win0_4.index t (0 : Fin 2) * 512 + 1 * q.val = o.val; omega
  | ⟨1, _⟩ => show win0_4.index t (1 : Fin 2) * 1024 + 1 * jj.val = (Cert.Acc.feat (grid0.coords t 2).val jj).val; omega

/-- The bias window's buffer holds the point's bias block on the part inside the array at EVERY point: it is
    fetched at the first point of each run along the reduction axis and left alone by the body. -/
theorem before5_cut (c : Dev nD) (t : Fin cfg0.N) (d) :
    (cfg0.win 5).cut (grid0.coords t) ((dats m 0 c).before 5 t d) = iblk m c 5 t := by
  by_cases h0 : t.val % 4 = 0
  · -- fetched here: the buffer was just filled with the block
    rw [before_fetched m c 5 t ((fetch0_5 t).mpr h0) d]
    exact (cfg0.win 5).cut_fill _ _ _
  · -- not fetched: the buffer holds what the body left at the point before, the block there, which is this block
    have hf : (cfg0.win 5).fetch t = false := by
      cases hft : (cfg0.win 5).fetch t
      · rfl
      · exact absurd ((fetch0_5 t).mp hft) h0
    have ht : t.val ≠ 0 := fun hz => h0 (by rw [hz])
    have hfl : (cfg0.win 5).flush (⟨t.val - 1, Nat.lt_of_le_of_lt (Nat.sub_le _ _) t.isLt⟩ : Fin cfg0.N) = false := by simp [Window.flush]
    have hb : (dats m 0 c).before 5 t d
        = (cfg0.win 5).fill (grid0.coords (⟨t.val - 1, Nat.lt_of_le_of_lt (Nat.sub_le _ _) t.isLt⟩ : Fin cfg0.N)) d (iblk m c 5 (⟨t.val - 1, Nat.lt_of_le_of_lt (Nat.sub_le _ _) t.isLt⟩ : Fin cfg0.N)) := by
      rw [(dats m 0 c).before_of_pos 5 t ht hf d, hfl, if_neg Bool.false_ne_true]
      unfold Dat.left Dat.kept
      rw [after_5]
      unfold inBlk
      rw [(cfg0.win 5).cut_fill]
    rw [hb]
    obtain ⟨p0, p1, px0, px1⟩ := win5_prev t h0
    funext j
    have hj0 : (j 0).val < win0_5.xsize (grid0.coords t) (0 : Fin 2) := (j 0).isLt
    have hj1 : (j 1).val < win0_5.xsize (grid0.coords t) (1 : Fin 2) := (j 1).isLt
    have hlt : ∀ a : Fin 2, (((cfg0.win 5).xinj (grid0.coords t) j) a).val < win0_5.xsize (grid0.coords (⟨t.val - 1, Nat.lt_of_le_of_lt (Nat.sub_le _ _) t.isLt⟩ : Fin cfg0.N)) a := fun a => by
      match a with
      | ⟨0, _⟩ => show (j 0).val < win0_5.xsize (grid0.coords (⟨t.val - 1, Nat.lt_of_le_of_lt (Nat.sub_le _ _) t.isLt⟩ : Fin cfg0.N)) (0 : Fin 2); rw [px0]; exact hj0
      | ⟨1, _⟩ => show (j 1).val < win0_5.xsize (grid0.coords (⟨t.val - 1, Nat.lt_of_le_of_lt (Nat.sub_le _ _) t.isLt⟩ : Fin cfg0.N)) (1 : Fin 2); rw [px1]; exact hj1
    refine (fill_inside win0_5 (grid0.coords (⟨t.val - 1, Nat.lt_of_le_of_lt (Nat.sub_le _ _) t.isLt⟩ : Fin cfg0.N)) d (iblk m c 5 (⟨t.val - 1, Nat.lt_of_le_of_lt (Nat.sub_le _ _) t.isLt⟩ : Fin cfg0.N)) ((cfg0.win 5).xinj (grid0.coords t) j) hlt).trans ?_
    show V m c main_v2 (((cfg0.win 5).blk (⟨t.val - 1, Nat.lt_of_le_of_lt (Nat.sub_le _ _) t.isLt⟩ : Fin cfg0.N)).view.emb _) = V m c main_v2 (((cfg0.win 5).blk t).view.emb j)
    congr 1
    funext a; apply Fin.ext
    match a with
    | ⟨0, _⟩ => show win0_5.index (⟨t.val - 1, Nat.lt_of_le_of_lt (Nat.sub_le _ _) t.isLt⟩ : Fin cfg0.N) (0 : Fin 2) * 1 + 1 * (j 0).val = win0_5.index t (0 : Fin 2) * 1 + 1 * (j 0).val; rw [p0]
    | ⟨1, _⟩ => show win0_5.index (⟨t.val - 1, Nat.lt_of_le_of_lt (Nat.sub_le _ _) t.isLt⟩ : Fin cfg0.N) (1 : Fin 2) * 512 + 1 * (j 1).val = win0_5.index t (1 : Fin 2) * 512 + 1 * (j 1).val; rw [p1]

/-- The bias's buffer at an entry inside the array, at every point. -/
theorem bias_entry (c : Dev nD) (t : Fin cfg0.N) (d5) (q : Fin 512) (o : Fin 11008)
    (ho : o.val = 512 * (grid0.coords t 1).val + q.val) :
    ((dats m 0 c).before 5 t d5 : Vec Ideal S1x512 .f32) (ix2 (0 : Fin 1) q)
      = (m ((c : Thread nD τ).loc main_arg4) : Vec Ideal S11008 .f32) (ix1 o) := by
  obtain ⟨e0, e1, x0, x1⟩ := win5_geom t
  obtain ⟨hm, hn, hk⟩ := grid_bounds t
  have hql : q.val < 512 := q.isLt
  have hol : o.val < 11008 := o.isLt
  have hlt : ∀ a : Fin 2, ((ix2 (0 : Fin 1) q : S1x512.Idx) a).val < win0_5.xsize (grid0.coords t) a := fun a => by
    match a with
    | ⟨0, _⟩ => show (0 : Fin 1).val < win0_5.xsize (grid0.coords t) (0 : Fin 2); rw [x0]; exact Nat.zero_lt_one
    | ⟨1, _⟩ => show q.val < win0_5.xsize (grid0.coords t) (1 : Fin 2); rw [x1]; omega
  -- the window's array is the bias, reshaped to one row
  have e : (V m c main_v2 : S1x11008.Idx → EReal)
      = shapeCast S1x11008 (m ((c : Thread nD τ).loc main_arg4)) shapeCasts_S11008_S1x11008 := by
    dsimp only [Gen.V, Gen.hostOps0]; after_results; rfl
  have hc := congrFun (before5_cut m c t d5) (fun a => ⟨((ix2 (0 : Fin 1) q : S1x512.Idx) a).val, hlt a⟩)
  have hx : (cfg0.win 5).xinj (grid0.coords t) (fun a => ⟨((ix2 (0 : Fin 1) q : S1x512.Idx) a).val, hlt a⟩) = (ix2 (0 : Fin 1) q : S1x512.Idx) :=
    funext fun a => Fin.ext rfl
  refine (congrArg ((dats m 0 c).before 5 t d5 : S1x512.Idx → EReal) hx.symm).trans ?_
  refine hc.trans ?_
  show (V m c main_v2 : S1x11008.Idx → EReal) (((cfg0.win 5).blk t).view.emb _) = _
  rw [e]
  refine shapeCast_apply _ shapeCasts_S11008_S1x11008 _ (ix1 o) ?_
  rw [Shape.rowMajor_val_one, Shape.rowMajor_val_two]
  show o.val = (win0_5.index t (0 : Fin 2) * 1 + 1 * (0 : Fin 1).val) * 11008 + (win0_5.index t (1 : Fin 2) * 512 + 1 * q.val)
  rw [e0, e1, show (0 * 1 + 1 * (0 : Fin 1).val) = 0 from rfl, Nat.zero_mul, Nat.zero_add]
  omega

/-- Contents of the output's buffer agree, on the part inside the array, with the point's block of a whole
    result `R` as soon as they agree entry by entry. -/
theorem out_cut_ext (c : Dev nD) (t : Fin cfg0.N) (X : Vec Ideal S1408x512 .f32) (R : Vec Ideal S4096x11008 .f32)
    (h : ∀ (p : Fin 1408) (q : Fin 512) (b : Fin 4096) (o : Fin 11008),
      b.val = 1408 * (grid0.coords t 0).val + p.val → o.val = 512 * (grid0.coords t 1).val + q.val → X (ix2 p q) = R (ix2 b o)) :
    (cfg0.win 6).cut (grid0.coords t) X = ((cfg0.win 6).blk t).view.read (Elt Ideal) R := by
  obtain ⟨e0, e1, x0, x1⟩ := win6_geom t
  obtain ⟨hm, hn, hk⟩ := grid_bounds t
  funext j
  have hj0 : (j 0).val < win0_6.xsize (grid0.coords t) (0 : Fin 2) := (j 0).isLt
  have hj1 : (j 1).val < win0_6.xsize (grid0.coords t) (1 : Fin 2) := (j 1).isLt
  rw [x0] at hj0; rw [x1] at hj1
  have hx : (cfg0.win 6).xinj (grid0.coords t) j
      = (ix2 (⟨(j 0).val, by omega⟩ : Fin 1408) (⟨(j 1).val, by omega⟩ : Fin 512) : S1408x512.Idx) :=
    funext fun a => Fin.ext (by match a with | ⟨0, _⟩ => rfl | ⟨1, _⟩ => rfl)
  have hy : ((cfg0.win 6).blk t).view.emb j
      = (ix2 (⟨1408 * (grid0.coords t 0).val + (j 0).val, by omega⟩ : Fin 4096)
          (⟨512 * (grid0.coords t 1).val + (j 1).val, by omega⟩ : Fin 11008) : S4096x11008.Idx) :=
    funext fun a => Fin.ext (by
      match a with
      | ⟨0, _⟩ => show win0_6.index t (0 : Fin 2) * 1408 + 1 * (j 0).val = 1408 * (grid0.coords t 0).val + (j 0).val; omega
      | ⟨1, _⟩ => show win0_6.index t (1 : Fin 2) * 512 + 1 * (j 1).val = 512 * (grid0.coords t 1).val + (j 1).val; omega)
  show X ((cfg0.win 6).xinj (grid0.coords t) j) = R (((cfg0.win 6).blk t).view.emb j)
  rw [hx, hy]
  exact h _ _ _ _ rfl rfl

/-- The point before a point that is not first along the reduction axis has the same row and column blocks and
    the reduction block before. -/
theorem coords_prev (t : Fin cfg0.N) (h0 : ¬t.val % 4 = 0) :
    grid0.coords (⟨t.val - 1, Nat.lt_of_le_of_lt (Nat.sub_le _ _) t.isLt⟩ : Fin cfg0.N) 0 = grid0.coords t 0
    ∧ grid0.coords (⟨t.val - 1, Nat.lt_of_le_of_lt (Nat.sub_le _ _) t.isLt⟩ : Fin cfg0.N) 1 = grid0.coords t 1
    ∧ (grid0.coords (⟨t.val - 1, Nat.lt_of_le_of_lt (Nat.sub_le _ _) t.isLt⟩ : Fin cfg0.N) 2).val + 1 = (grid0.coords t 2).val :=
  (by decide +kernel : ∀ t : Fin grid0.N, ¬t.val % 4 = 0 →
    grid0.coords (⟨t.val - 1, Nat.lt_of_le_of_lt (Nat.sub_le _ _) t.isLt⟩ : Fin grid0.N) 0 = grid0.coords t 0
    ∧ grid0.coords (⟨t.val - 1, Nat.lt_of_le_of_lt (Nat.sub_le _ _) t.isLt⟩ : Fin grid0.N) 1 = grid0.coords t 1
    ∧ (grid0.coords (⟨t.val - 1, Nat.lt_of_le_of_lt (Nat.sub_le _ _) t.isLt⟩ : Fin grid0.N) 2).val + 1 = (grid0.coords t 2).val) t h0

/-- The reduction coordinate of a point is its position modulo 4. -/
theorem coords_k (t : Fin cfg0.N) : (grid0.coords t 2).val = t.val % 4 :=
  (by decide +kernel : ∀ t : Fin grid0.N, (grid0.coords t 2).val = t.val % 4) t

end Cert.KernelIdeal.Hand

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.IdealPayload.lean ====
/-
  The kernel body's three stored values, read at one entry, on the extended reals.

  The body keeps a [1408, 512] accumulator. Its first stored value is the zero matrix; its last is the
  accumulator plus the bias row, repeated down the rows. The one in between adds to the accumulator the product
  of the activation block [1408, 1024] with the TRANSPOSE of a [512, 1024] block of noisy weights, which the body
  builds from the quantized block, the noise block, and the scale and zero-point blocks. Those two arrive as
  [8, 512] (group, output feature) and are spread to [512, 1024]: transposed to [512, 8], given a trailing unit
  axis, repeated 128 times along it, and flattened row-major, so entry (q, j) of the spread block is the block's
  entry (j / 128, q) — the position j in a row is 128 * (j / 128) + j % 128. Changes of float format are the
  identity on the extended reals, so the product's entry (p, q) is the sum over j of the activation (p, j) times
  the noisy weight (q, j). Nothing here cancels or distributes: every step is unfolding, so no finiteness is used.
-/
import proofs.«104597_j16475494548100_1_alg».proof.Proof.Gen.KernelIdeal.Skeleton
import proofs.«104597_j16475494548100_1_alg».proof.Proof.Spec
import proofs.«104597_j16475494548100_1_alg».proof.Proof.LibMatmulRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.IdealPayload

open Cert.KernelIdeal Cert.KernelIdeal.Gen Idealize.ShloMosaic Idealize.ShloMosaic.ValueIdx

/-- The group, within a block of 1024 input features, of feature `j`: 128 consecutive features share a group. -/
def g8 (j : Fin 1024) : Fin 8 := ⟨j.val / 128, by have := j.isLt; omega⟩

/-- The position of feature `j` inside its group. -/
def l128 (j : Fin 1024) : Fin 128 := ⟨j.val % 128, Nat.mod_lt _ (by decide)⟩

/-- Entry (q, j) of the noisy weight block: the dequantized weight `(qv[q, j] - ze[j / 128, q]) * sc[j / 128, q]`
    plus the noise times a fixed fraction of its magnitude. -/
def wBlk (sc ze : Vec Ideal S8x512 .f32) (qv : Vec Ideal S512x1024 .i32) (nz : Vec Ideal S512x1024 .f32)
    (q : Fin 512) (j : Fin 1024) : EReal :=
  ((FloatOps.sitofp (F := Ideal) .f32 (qv (ix2 q j)) : EReal) - ze (ix2 (g8 j) q)) * sc (ix2 (g8 j) q)
    + nz (ix2 q j) * (Cert.Spec.noiseLevel
        * (FloatOps.absf (F := Ideal) (φ := .f32)
            (((FloatOps.sitofp (F := Ideal) .f32 (qv (ix2 q j)) : EReal) - ze (ix2 (g8 j) q)) * sc (ix2 (g8 j) q)) : EReal))

/-! ## Spreading a per-group block over the features -/

/-- A [8, 512] block (group, output feature) transposed, given a trailing unit axis, repeated 128 times along it
    and flattened to [512, 1024] reads, at (q, j), the block's entry (j / 128, q). -/
theorem spread_apply {α : Type} (v : S8x512.Idx → α) (h1 : S8x512.ShapeCasts S8x512)
    (h2 : S8x512.Transposes [1, 0] S512x8) (h3 : S512x8.ShapeCasts S512x8x1) (h4 : S512x8x1.ShapeCasts S512x8x1)
    (h5 : S512x8x1.Broadcasts S512x8x128) (h6 : S512x8x128.ShapeCasts S512x1024) (q : Fin 512) (j : Fin 1024) :
    shapeCast S512x1024 (broadcastTo S512x8x128 (shapeCast S512x8x1 (shapeCast S512x8x1
      (transpose S512x8 [1, 0] (shapeCast S8x512 v h1) h2) h3) h4) h5) h6 (ix2 q j) = v (ix2 (g8 j) q) := by
  have hq := q.isLt
  have hj := j.isLt
  rw [shapeCast_self v h1, shapeCast_self _ h4]
  refine (shapeCast_apply _ h6 (ix2 q j) (ix3 q (g8 j) (l128 j)) ?_).trans ?_
  · rewrite [Shape.rowMajor_val_three, Shape.rowMajor_val_two]
    show (q.val * 8 + j.val / 128) * 128 + j.val % 128 = q.val * 1024 + j.val
    omega
  refine (broadcastTo_apply _ h5 (ix3 q (g8 j) (l128 j)) (ix3 q (g8 j) (0 : Fin 1)) fun a => ?_).trans ?_
  · match a with
    | ⟨0, _⟩ => show q.val = if (512 : Nat) = 1 then 0 else q.val; rw [if_neg (by decide)]
    | ⟨1, _⟩ => show j.val / 128 = if (8 : Nat) = 1 then 0 else j.val / 128; rw [if_neg (by decide)]
    | ⟨2, _⟩ => show 0 = if (1 : Nat) = 1 then 0 else j.val % 128; rw [if_pos rfl]
  refine (shapeCast_apply _ h3 (ix3 q (g8 j) (0 : Fin 1)) (ix2 q (g8 j)) ?_).trans ?_
  · rewrite [Shape.rowMajor_val_two, Shape.rowMajor_val_three]
    show q.val * 8 + j.val / 128 = (q.val * 8 + j.val / 128) * 1 + 0
    omega
  exact transpose_apply [1, 0] v h2 (ix2 q (g8 j)) (ix2 (g8 j) q) fun b => by
    match b with
    | ⟨0, _⟩ => rfl
    | ⟨1, _⟩ => rfl

/-! ## The noisy weight block as the body builds it -/

/-- The [512, 1024] block of noisy weights, built from the loaded blocks as the body builds it. -/
def wVec (sc ze : Vec Ideal S8x512 .f32) (qv : Vec Ideal S512x1024 .i32) (nz : Vec Ideal S512x1024 .f32) :
    FVec Ideal S512x1024 .f32 :=
  let spread (v : Vec Ideal S8x512 .f32) : FVec Ideal S512x1024 .f32 :=
    shapeCast S512x1024 (broadcastTo S512x8x128 (shapeCast S512x8x1 (shapeCast S512x8x1
      (transpose S512x8 [1, 0] (shapeCast S8x512 v shapeCasts_S8x512_S8x512) transposes_S8x512_p1_0_S512x8)
      shapeCasts_S512x8_S512x8x1) shapeCasts_S512x8x1_S512x8x1) broadcasts_S512x8x1_S512x8x128)
      shapeCasts_S512x8x128_S512x1024
  let w : FVec Ideal S512x1024 .f32 := mulf (subf (sitofp .f32 qv) (spread ze)) (spread sc)
  addf w (mulf nz (mulf (broadcast S512x1024 (Scalar.ofBits (F := Ideal) .f32 0x3D4CCCCD#32)) (absf w)))

/-- A magnitude at an index is the magnitude of the element. -/
theorem absf_apply {s : Shape} {φ : FTy} (a : FVec Ideal s φ) (i : s.Idx) : absf a i = FloatOps.absf (a i) := rfl

/-- The noisy weight block at an entry. -/
theorem wVec_apply (sc ze : Vec Ideal S8x512 .f32) (qv : Vec Ideal S512x1024 .i32) (nz : Vec Ideal S512x1024 .f32)
    (q : Fin 512) (j : Fin 1024) : wVec sc ze qv nz (ix2 q j) = wBlk sc ze qv nz q j := by
  have es := spread_apply sc shapeCasts_S8x512_S8x512 transposes_S8x512_p1_0_S512x8 shapeCasts_S512x8_S512x8x1
    shapeCasts_S512x8x1_S512x8x1 broadcasts_S512x8x1_S512x8x128 shapeCasts_S512x8x128_S512x1024 q j
  have ez := spread_apply ze shapeCasts_S8x512_S8x512 transposes_S8x512_p1_0_S512x8 shapeCasts_S512x8_S512x8x1
    shapeCasts_S512x8x1_S512x8x1 broadcasts_S512x8x1_S512x8x128 shapeCasts_S512x8x128_S512x1024 q j
  unfold wVec wBlk
  dsimp only
  simp only [addf_apply, mulf_apply, subf_apply, absf_apply, sitofp_apply, broadcast_apply, es, ez]
  rfl

/-! ## The block's noisy weight against the whole matrix's -/

/-- Feature `j` of the `kk`-th block of 1024 input features is feature `kk * 1024 + j` of the row, and its group
    among the row's 32 is `kk * 8` plus its group inside the block: a block of 1024 features is 8 whole groups. -/
theorem grp_block (kk : Fin 4) (j : Fin 1024) (i : Fin 4096) (hi : i.val = kk.val * 1024 + j.val) :
    (Cert.Spec.grp i).val = kk.val * 8 + (g8 j).val := by
  have hj := j.isLt
  show i.val / 128 = kk.val * 8 + j.val / 128
  omega

/-- An entry of the noisy weight block is the specification's noisy weight of the whole matrix, once the four
    block entries it is built from are the whole arrays' entries: both are the same expression of them. -/
theorem wBlk_eq_noisy (sc ze : Vec Ideal S8x512 .f32) (qv : Vec Ideal S512x1024 .i32) (nz : Vec Ideal S512x1024 .f32)
    (Q : Cert.Spec.SQ.Idx → BitVec 32) (SC ZE : Cert.Spec.SG.Idx → EReal) (NZ : Cert.Spec.SQ.Idx → EReal)
    (q : Fin 512) (j : Fin 1024) (o : Fin 11008) (i : Fin 4096)
    (hq : qv (ix2 q j) = Q (ix2 o i)) (hs : sc (ix2 (g8 j) q) = SC (ix2 o (Cert.Spec.grp i)))
    (hz : ze (ix2 (g8 j) q) = ZE (ix2 o (Cert.Spec.grp i))) (hn : nz (ix2 q j) = NZ (ix2 o i)) :
    wBlk sc ze qv nz q j = Cert.Spec.noisy Q SC ZE NZ o i := by
  unfold wBlk Cert.Spec.noisy Cert.Spec.deq
  rw [hq, hs, hz, hn]

/-! ## The three stored values -/

/-- The accumulating store: the accumulator's entry plus the row of activations against the row of noisy
    weights. -/
theorem pay3_apply (sc ze : Vec Ideal S8x512 .f32) (qv : Vec Ideal S512x1024 .i32) (nz : Vec Ideal S512x1024 .f32)
    (xa : Vec Ideal S1408x1024 .f32) (acc : Vec Ideal S1408x512 .f32) (p : Fin 1408) (q : Fin 512) :
    k0_pay3 (F := Ideal) sc ze qv nz xa acc (ix2 p q)
      = acc (ix2 p q) + ∑ j : Fin 1024, xa (ix2 p j) * wBlk sc ze qv nz q j := by
  have e : k0_pay3 (F := Ideal) sc ze qv nz xa acc
      = shapeCast S1408x512 (addf acc (matmul (Cert.LibMatmulRows.rowsDims 1408 1024 512
          dot_S1408x1024_S512x1024_S1408x512_1_1_0_0_n_n.wf) none
          (truncf .bf16 xa bitsLt_bf16_f32) (truncf .bf16 (wVec sc ze qv nz) bitsLt_bf16_f32)
          (constant (F := Ideal) S1408x512 .f32 0x00000000#32))) shapeCasts_S1408x512_S1408x512 := rfl
  rw [e, shapeCast_self]
  refine (addf_apply _ _ _).trans (congrArg (acc (ix2 p q) + ·) ?_)
  refine (Cert.LibMatmulRows.matmul_zero_apply _ none _ _ p q).trans (Finset.sum_congr rfl fun j _ => ?_)
  rw [truncf_apply, truncf_apply, wVec_apply]

/-- The first store: the zero matrix. -/
theorem pay2_apply (p : Fin 1408) (q : Fin 512) : k0_pay2 (F := Ideal) (ix2 p q) = 0 := by
  unfold k0_pay2
  rw [shapeCast_self]
  exact Ideal.ofBits_zero_f32

/-- The last store: the accumulator's entry plus the bias of its column. -/
theorem pay1_apply (acc : Vec Ideal S1408x512 .f32) (bias : Vec Ideal S1x512 .f32) (p : Fin 1408) (q : Fin 512) :
    k0_pay1 (F := Ideal) acc bias (ix2 p q) = acc (ix2 p q) + bias (ix2 (0 : Fin 1) q) := by
  unfold k0_pay1
  rw [shapeCast_self]
  refine (addf_apply _ _ _).trans (congrArg (acc (ix2 p q) + ·) ?_)
  exact broadcastTo_apply bias broadcasts_S1x512_S1408x512 (ix2 p q) (ix2 (0 : Fin 1) q) fun a => by
    match a with
    | ⟨0, _⟩ => show 0 = if (1 : Nat) = 1 then 0 else p.val; rw [if_pos rfl]
    | ⟨1, _⟩ => show q.val = if (512 : Nat) = 1 then 0 else q.val; rw [if_neg (by decide)]

end Cert.IdealPayload

end
-- ==== Proof.IdealPure.lean ====
/-
  What the body's arithmetic leaves, entry by entry, at a point of the grid: the pure facts the body obligation
  rests on.
-/
import proofs.«104597_j16475494548100_1_alg».proof.Proof.IdealEntries
import proofs.«104597_j16475494548100_1_alg».proof.Proof.IdealPayload

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The point before `t` (for `t` not the first). -/
abbrev prev (t : Fin cfg0.N) : Fin cfg0.N := ⟨t.val - 1, Nat.lt_of_le_of_lt (Nat.sub_le _ _) t.isLt⟩

/-! ## One reduction block's sum, over plain buffers

The body's sum at a point runs over the 1024 positions of the point's reduction block. Position `j` of block `k`
is input feature `1024 * k + j`, whose group among the row's 32 is `8 * k + j / 128`. So when every buffer entry
the sum reads is the entry of its array that it stands for, the sum is, term by term, block `k`'s contribution
to the specified entry. -/

open Cert.IdealPayload in
/-- Block `k`'s 1024 products computed from the buffers are its contribution to entry (b, o) of the whole
    arrays, given the buffers' entries. -/
theorem sum_eq_blockSum (X : Cert.Spec.SX.Idx → EReal) (Q : Cert.Spec.SQ.Idx → BitVec 32) (SC ZE : Cert.Spec.SG.Idx → EReal)
    (NZ : Cert.Spec.SQ.Idx → EReal) (sc ze : Vec Ideal S8x512 .f32) (qv : Vec Ideal S512x1024 .i32)
    (nz : Vec Ideal S512x1024 .f32) (xa : Vec Ideal S1408x1024 .f32) (k : ℕ) (hk : k < 4)
    (p : Fin 1408) (q : Fin 512) (b : Fin 4096) (o : Fin 11008)
    (hx : ∀ j : Fin 1024, xa (ix2 p j) = X (ix2 b (Cert.Acc.feat k j)))
    (hq : ∀ j : Fin 1024, qv (ix2 q j) = Q (ix2 o (Cert.Acc.feat k j)))
    (hs : ∀ (g : Fin 8) (gg : Fin 32), gg.val = 8 * k + g.val → sc (ix2 g q) = SC (ix2 o gg))
    (hz : ∀ (g : Fin 8) (gg : Fin 32), gg.val = 8 * k + g.val → ze (ix2 g q) = ZE (ix2 o gg))
    (hn : ∀ j : Fin 1024, nz (ix2 q j) = NZ (ix2 o (Cert.Acc.feat k j))) :
    ∑ j : Fin 1024, xa (ix2 p j) * wBlk sc ze qv nz q j = Cert.Acc.blockSum X Q SC ZE NZ k b o := by
  unfold Cert.Acc.blockSum
  refine Finset.sum_congr rfl fun j _ => ?_
  have hj := j.isLt
  have hf : (Cert.Acc.feat k j).val = 1024 * k + j.val := Cert.Acc.feat_val k hk j
  have hg : (Cert.Spec.grp (Cert.Acc.feat k j)).val = 8 * k + (g8 j).val := by
    show (Cert.Acc.feat k j).val / 128 = 8 * k + j.val / 128
    omega
  rw [hx j, wBlk_eq_noisy sc ze qv nz Q SC ZE NZ q j o (Cert.Acc.feat k j) (hq j) (hs _ _ hg) (hz _ _ hg) (hn j)]

/-- The running sum restarts: zero plus the first block's contribution is the running sum at position 0. -/
theorem acc_first_aux (X : Cert.Spec.SX.Idx → EReal) (Q : Cert.Spec.SQ.Idx → BitVec 32) (SC ZE : Cert.Spec.SG.Idx → EReal)
    (NZ : Cert.Spec.SQ.Idx → EReal) (k : ℕ) (hk : k = 0) (b : Fin 4096) (o : Fin 11008) :
    0 + Cert.Acc.blockSum X Q SC ZE NZ k b o = Cert.Acc.acc X Q SC ZE NZ k b o := by
  subst hk; rfl

/-- The running sum grows: the sum at the position before plus this block's contribution is the sum here. -/
theorem acc_step_aux (X : Cert.Spec.SX.Idx → EReal) (Q : Cert.Spec.SQ.Idx → BitVec 32) (SC ZE : Cert.Spec.SG.Idx → EReal)
    (NZ : Cert.Spec.SQ.Idx → EReal) (k' k : ℕ) (hk : k' + 1 = k) (b : Fin 4096) (o : Fin 11008) :
    Cert.Acc.acc X Q SC ZE NZ k' b o + Cert.Acc.blockSum X Q SC ZE NZ k b o = Cert.Acc.acc X Q SC ZE NZ k b o := by
  subst hk; rfl

/-- At a first point of the reduction axis the accumulator, restarted from zero, holds the first block's sum. -/
theorem inv_first (c : Dev nD) (t : Fin cfg0.N) (h0 : t.val % 4 = 0) (d0 d1 d2 d3 d4) :
    Inv m c t (k0_pay3 (F := Ideal) ((dats m 0 c).before 2 t d2) ((dats m 0 c).before 3 t d3) ((dats m 0 c).before 1 t d1)
      ((dats m 0 c).before 4 t d4) ((dats m 0 c).before 0 t d0) (k0_pay2 (F := Ideal))) := by
  intro p q b o hb ho
  have hk : (grid0.coords t 2).val = t.val % 4 := coords_k t
  have hk4 : (grid0.coords t 2).val < 4 := by rw [hk]; exact Nat.mod_lt _ (by norm_num)
  refine (Cert.IdealPayload.pay3_apply _ _ _ _ _ _ p q).trans ?_
  refine (congrArg₂ (· + ·) (Cert.IdealPayload.pay2_apply p q) (sum_eq_blockSum _ _ _ _ _ _ _ _ _ _ _ hk4 p q b o
    (fun j => x_entry m c t d0 p j b hb) (fun j => q_entry m c t d1 q j o ho)
    (fun g gg hg => scale_entry m c t d2 g q o gg ho hg) (fun g gg hg => zero_entry m c t d3 g q o gg ho hg)
    (fun j => noise_entry m c t d4 q j o ho))).trans ?_
  exact acc_first_aux _ _ _ _ _ _ (hk.trans h0) b o

/-- At a later point the accumulator grows by the point's block. -/
theorem inv_step (c : Dev nD) (t : Fin cfg0.N) (h0 : ¬t.val % 4 = 0) (d0 d1 d2 d3 d4) (XS : Vec Ideal S1408x512 .f32)
    (hS : Inv m c (prev t) XS) :
    Inv m c t (k0_pay3 (F := Ideal) ((dats m 0 c).before 2 t d2) ((dats m 0 c).before 3 t d3) ((dats m 0 c).before 1 t d1)
      ((dats m 0 c).before 4 t d4) ((dats m 0 c).before 0 t d0) XS) := by
  intro p q b o hb ho
  have hk : (grid0.coords t 2).val = t.val % 4 := coords_k t
  have hk4 : (grid0.coords t 2).val < 4 := by rw [hk]; exact Nat.mod_lt _ (by norm_num)
  obtain ⟨e0, e1, e2⟩ := coords_prev t h0
  have hb' : b.val = 1408 * (grid0.coords (prev t) 0).val + p.val :=
    hb.trans (congrArg (fun z => 1408 * z + p.val) (congrArg Fin.val e0).symm)
  have ho' : o.val = 512 * (grid0.coords (prev t) 1).val + q.val :=
    ho.trans (congrArg (fun z => 512 * z + q.val) (congrArg Fin.val e1).symm)
  have hacc : XS (ix2 p q) = accOf m c (grid0.coords (prev t) 2).val b o := hS p q b o hb' ho'
  refine (Cert.IdealPayload.pay3_apply _ _ _ _ _ _ p q).trans ?_
  refine (congrArg₂ (· + ·) hacc (sum_eq_blockSum _ _ _ _ _ _ _ _ _ _ _ hk4 p q b o
    (fun j => x_entry m c t d0 p j b hb) (fun j => q_entry m c t d1 q j o ho)
    (fun g gg hg => scale_entry m c t d2 g q o gg ho hg) (fun g gg hg => zero_entry m c t d3 g q o gg ho hg)
    (fun j => noise_entry m c t d4 q j o ho))).trans ?_
  exact acc_step_aux _ _ _ _ _ _ _ e2 b o

/-- At a last point the stored block — the accumulator plus the bias — is, on the part inside the array, the
    point's block of the specified result. -/
theorem out_last (c : Dev nD) (t : Fin cfg0.N) (h3 : t.val % 4 = 3) (d5) (S' : Vec Ideal S1408x512 .f32) (hS : Inv m c t S') :
    (cfg0.win 6).cut (grid0.coords t) (k0_pay1 (F := Ideal) S' ((dats m 0 c).before 5 t d5))
      = ((cfg0.win 6).blk t).view.read (Elt Ideal) (KG m c) := by
  refine out_cut_ext c t _ (KG m c) fun p q b o hb ho => ?_
  have hk : (grid0.coords t 2).val = 3 := (coords_k t).trans h3
  have hacc : S' (ix2 p q) = accOf m c (grid0.coords t 2).val b o := hS p q b o hb ho
  refine (Cert.IdealPayload.pay1_apply _ _ p q).trans ?_
  refine (congrArg₂ (· + ·) hacc (bias_entry m c t d5 q o ho)).trans ?_
  rw [hk]
  exact (Cert.Acc.G_eq_acc _ _ _ _ _ _ (ix2 b o)).symm

end Cert.KernelIdeal.Hand

end
-- ==== Proof.IdealOblig.lean ====
/-
  The body obligation of the idealized kernel's pipeline: at every grid point, from the region invariant and the
  windows' staging buffers as the pipeline hands them over, the body runs to the invariant at the next point and
  to each buffer at what the proof data say it holds. A point is first, middle or last along the reduction axis;
  in each case the body's triple applies, the accumulator's new contents satisfy the invariant, the inputs'
  buffers are handed back as found, and the output's buffer is handed back as found or, at a last point, holding
  the point's block of the specified result on the part inside the array.
-/
import proofs.«104597_j16475494548100_1_alg».proof.Proof.IdealBody
import proofs.«104597_j16475494548100_1_alg».proof.Proof.IdealPure

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Where the output window is idle -/

theorem idle6 : ∀ t : Fin cfg0.N, ¬t.val % 4 = 3 → cfg0.idle 6 (grid0.coords t) = true :=
  (by decide +kernel : ∀ t : Fin grid0.N, ¬t.val % 4 = 3 → cfg0.idle 6 (grid0.coords t) = true)
theorem noflush6 : ∀ t : Fin cfg0.N, ¬t.val % 4 = 3 → (cfg0.win 6).flush t = false :=
  (by decide +kernel : ∀ t : Fin grid0.N, ¬t.val % 4 = 3 → win0_6.flush t = false)
theorem live6 : ∀ t : Fin cfg0.N, t.val % 4 = 3 → cfg0.idle 6 (grid0.coords t) = false :=
  (by decide +kernel : ∀ t : Fin grid0.N, t.val % 4 = 3 → cfg0.idle 6 (grid0.coords t) = false)

/-! ## The invariant before a point -/

theorem PhiS_at_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(∃ S, ⌜Inv m c ⟨n - 1, by omega⟩ S⌝ ∗ owns (c : Thread nD τ) scM fullShare S) ∗ (∃ r, prngReg c r)) := by
  cases n with
  | zero => exact absurd rfl hz
  | succ n => rfl

/-! ## What is handed back of the inputs -/

/-- A fetched input's buffer, untouched by the body, is its block on the part inside the array. -/
theorem keep_fetched (c : Dev nD) (w : Fin cfg0.W) (t : Fin cfg0.N) (hf : (cfg0.win w).fetch t = true) (d) :
    (cfg0.win w).fill (grid0.coords t) d ((cfg0.win w).cut (grid0.coords t) (inBlk m c w t)) = (dats m 0 c).before w t d := by
  rw [before_fetched m c w t hf d]; unfold inBlk; rw [Window.cut_fill]

/-- The bias buffer, untouched by the body, is the point's bias block on the part inside the array. -/
theorem keep_bias (c : Dev nD) (t : Fin cfg0.N) (d) :
    (cfg0.win 5).fill (grid0.coords t) ((dats m 0 c).before 5 t d) ((cfg0.win 5).cut (grid0.coords t) (inBlk m c 5 t))
      = (dats m 0 c).before 5 t d := by
  refine (cfg0.win 5).fill_congr_cut (grid0.coords t) ?_
  rw [before5_cut m c t d]; unfold inBlk; rw [Window.cut_fill]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t)

/-- An input window is never idle: its buffer is handed back stated on the part inside the array. -/
theorem leaves_in (c : Dev nD) (w : Fin cfg0.W) (t : Fin cfg0.N) (hi : cfg0.idle w (grid0.coords t) = false) (hl : cfg0.loose w = true) :
    (dats m 0 c).leaves w t = iprop(∃ d, owns (c : Thread nD τ) ((cfg0.win w).stage (cfg0.slots t w)) fullShare
      ((cfg0.win w).fill (grid0.coords t) d ((cfg0.win w).cut (grid0.coords t) ((dats m 0 c).after w t)))) := by
  unfold Dat.leaves; rw [hi, hl]

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [Phi_succ m c t, PhiS_succ]
  rw [leaves_in m c 0 t rfl rfl, leaves_in m c 1 t rfl rfl, leaves_in m c 2 t rfl rfl, leaves_in m c 3 t rfl rfl,
    leaves_in m c 4 t rfl rfl, leaves_in m c 5 t rfl rfl]
  by_cases h0 : t.val % 4 = 0
  · have h3 : ¬t.val % 4 = 3 := by omega
    rw [Dat.leaves_idle (dats m 0 c) 6 t (idle6 t h3) (noflush6 t h3)]
    by_cases hz : t.val = 0
    ·
      rw [Phi_castSucc m c t, PhiS_at_zero m c _ _ hz, PhiA_eq]
      iintro ⟨⟨⟨%XS, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_first (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM (Memref.isWhole_whole _) ((hcondReset t).mpr h0) (fun h => h3 ((hcondStore t).mp h))
        ((dats m 0 c).before 0 t d0) ((dats m 0 c).before 1 t d1) ((dats m 0 c).before 2 t d2) ((dats m 0 c).before 3 t d3)
        ((dats m 0 c).before 4 t d4) ((dats m 0 c).before 5 t d5) ((dats m 0 c).before 6 t d6) XS Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _; isplitr
          · ipureintro; exact inv_first m c t h0 d0 d1 d2 d3 d4
          iexact HS
        iexact Hg
      isplitl [Ho]; · iexact Ho
      isplitl [H0]; · iexists d0; rw [after_0, keep_fetched m c 0 t (fetch0_0 t) d0]; iexact H0
      isplitl [H1]; · iexists d1; rw [after_1, keep_fetched m c 1 t (fetch0_1 t) d1]; iexact H1
      isplitl [H2]; · iexists d2; rw [after_2, keep_fetched m c 2 t (fetch0_2 t) d2]; iexact H2
      isplitl [H3]; · iexists d3; rw [after_3, keep_fetched m c 3 t (fetch0_3 t) d3]; iexact H3
      isplitl [H4]; · iexists d4; rw [after_4, keep_fetched m c 4 t (fetch0_4 t) d4]; iexact H4
      isplitl [H5]; · iexists _; rw [after_5, keep_bias m c t d5]; iexact H5
      iexists d6; iexact H6
    ·
      rw [Phi_castSucc m c t, PhiS_pos m c _ _ hz]
      iintro ⟨⟨⟨%XS, %hXS, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_first (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM (Memref.isWhole_whole _) ((hcondReset t).mpr h0) (fun h => h3 ((hcondStore t).mp h))
        ((dats m 0 c).before 0 t d0) ((dats m 0 c).before 1 t d1) ((dats m 0 c).before 2 t d2) ((dats m 0 c).before 3 t d3)
        ((dats m 0 c).before 4 t d4) ((dats m 0 c).before 5 t d5) ((dats m 0 c).before 6 t d6) XS Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _; isplitr
          · ipureintro; exact inv_first m c t h0 d0 d1 d2 d3 d4
          iexact HS
        iexact Hg
      isplitl [Ho]; · iexact Ho
      isplitl [H0]; · iexists d0; rw [after_0, keep_fetched m c 0 t (fetch0_0 t) d0]; iexact H0
      isplitl [H1]; · iexists d1; rw [after_1, keep_fetched m c 1 t (fetch0_1 t) d1]; iexact H1
      isplitl [H2]; · iexists d2; rw [after_2, keep_fetched m c 2 t (fetch0_2 t) d2]; iexact H2
      isplitl [H3]; · iexists d3; rw [after_3, keep_fetched m c 3 t (fetch0_3 t) d3]; iexact H3
      isplitl [H4]; · iexists d4; rw [after_4, keep_fetched m c 4 t (fetch0_4 t) d4]; iexact H4
      isplitl [H5]; · iexists _; rw [after_5, keep_bias m c t d5]; iexact H5
      iexists d6; iexact H6
  · have hz : t.val ≠ 0 := fun e => h0 (by rw [e])
    by_cases h3 : t.val % 4 = 3
    · rw [leaves_in m c 6 t (live6 t h3) rfl]
      rw [Phi_castSucc m c t, PhiS_pos m c _ _ hz]
      iintro ⟨⟨⟨%XS, %hXS, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_last (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM (Memref.isWhole_whole _) (fun h => h0 ((hcondReset t).mp h)) ((hcondStore t).mpr h3)
        ((dats m 0 c).before 0 t d0) ((dats m 0 c).before 1 t d1) ((dats m 0 c).before 2 t d2) ((dats m 0 c).before 3 t d3)
        ((dats m 0 c).before 4 t d4) ((dats m 0 c).before 5 t d5) ((dats m 0 c).before 6 t d6) XS Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _; isplitr
          · ipureintro; exact inv_step m c t h0 d0 d1 d2 d3 d4 XS hXS
          iexact HS
        iexact Hg
      isplitl [Ho]; · iexact Ho
      isplitl [H0]; · iexists d0; rw [after_0, keep_fetched m c 0 t (fetch0_0 t) d0]; iexact H0
      isplitl [H1]; · iexists d1; rw [after_1, keep_fetched m c 1 t (fetch0_1 t) d1]; iexact H1
      isplitl [H2]; · iexists d2; rw [after_2, keep_fetched m c 2 t (fetch0_2 t) d2]; iexact H2
      isplitl [H3]; · iexists d3; rw [after_3, keep_fetched m c 3 t (fetch0_3 t) d3]; iexact H3
      isplitl [H4]; · iexists d4; rw [after_4, keep_fetched m c 4 t (fetch0_4 t) d4]; iexact H4
      isplitl [H5]; · iexists _; rw [after_5, keep_bias m c t d5]; iexact H5
      iexists _
      rw [after_6, show (cfg0.win 6).cut (grid0.coords t) (outBlk m c t) = ((cfg0.win 6).blk t).view.read (Elt Ideal) (KG m c) from (cfg0.win 6).cut_fill _ _ _,
        ← out_last m c t h3 d5 _ (inv_step m c t h0 d0 d1 d2 d3 d4 XS hXS), (cfg0.win 6).fill_cut]
      iexact H6
    · rw [Dat.leaves_idle (dats m 0 c) 6 t (idle6 t h3) (noflush6 t h3)]
      rw [Phi_castSucc m c t, PhiS_pos m c _ _ hz]
      iintro ⟨⟨⟨%XS, %hXS, HS⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) scM (Memref.isWhole_whole _) (fun h => h0 ((hcondReset t).mp h)) (fun h => h3 ((hcondStore t).mp h))
        ((dats m 0 c).before 0 t d0) ((dats m 0 c).before 1 t d1) ((dats m 0 c).before 2 t d2) ((dats m 0 c).before 3 t d3)
        ((dats m 0 c).before 4 t d4) ((dats m 0 c).before 5 t d5) ((dats m 0 c).before 6 t d6) XS Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]
        · iexists _; isplitr
          · ipureintro; exact inv_step m c t h0 d0 d1 d2 d3 d4 XS hXS
          iexact HS
        iexact Hg
      isplitl [Ho]; · iexact Ho
      isplitl [H0]; · iexists d0; rw [after_0, keep_fetched m c 0 t (fetch0_0 t) d0]; iexact H0
      isplitl [H1]; · iexists d1; rw [after_1, keep_fetched m c 1 t (fetch0_1 t) d1]; iexact H1
      isplitl [H2]; · iexists d2; rw [after_2, keep_fetched m c 2 t (fetch0_2 t) d2]; iexact H2
      isplitl [H3]; · iexists d3; rw [after_3, keep_fetched m c 3 t (fetch0_3 t) d3]; iexact H3
      isplitl [H4]; · iexists d4; rw [after_4, keep_fetched m c 4 t (fetch0_4 t) d4]; iexact H4
      isplitl [H5]; · iexists _; rw [after_5, keep_bias m c t d5]; iexact H5
      iexists d6; iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero]
  try exact Idealize.SL.BI.Entails.refl _

/-- After the last point the invariant gives the class's back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 264 := N_0; omega), PhiA_eq]
  iintro ⟨⟨%S, -, HS⟩, Hg⟩
  isplitl [HS]
  · iexists S; iexact HS
  iexact Hg

end Cert.KernelIdeal.Hand

end
-- ==== Proof.IdealRun.lean ====
/-
  The idealized kernel's run: every weakly fair execution terminates, nothing faults, the result array ends
  holding the specified result and the arguments what they held.

  The result array is written one block per pair (row block, out-feature block), at the pair's last point along
  the reduction axis, with the point's block of the specified result cut at the array's end; the 3 x 22 blocks
  cover the array (row r lies in row block r / 1408, out-feature o in block o / 512), so the array ends holding
  the specified result everywhere.
-/
import proofs.«104597_j16475494548100_1_alg».proof.Proof.IdealOblig

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one
set_option backward.isDefEq.respectTransparency.types false in
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- What a last point writes back is its block of the specified result. -/
theorem flushed6_eq (c : Dev nD) (t : Fin cfg0.N) :
    (dats m 0 c).flushed 6 t = ((cfg0.win 6).blk t).view.read (Elt Ideal) (KG m c) := by
  show (cfg0.win 6).cut (grid0.coords t) ((dats m 0 c).after 6 t) = _
  rw [after_6]; exact (cfg0.win 6).cut_fill _ _ _

/-- The result window's block index and cut sizes at a point, from the point's position. -/
theorem idx_facts6 : ∀ t : Fin cfg0.N, win0_6.index t (0 : Fin 2) = t.val / 88 ∧ win0_6.index t (1 : Fin 2) = t.val / 4 % 22
    ∧ win0_6.xsize (grid0.coords t) (0 : Fin 2) = min 1408 (4096 - 1408 * (t.val / 88))
    ∧ win0_6.xsize (grid0.coords t) (1 : Fin 2) = min 512 (11008 - 512 * (t.val / 4 % 22)) :=
  (by decide +kernel : ∀ t : Fin grid0.N, _)

/-- An index of the result array is in a point's block iff each coordinate is in the block's range, cut at the
    array's end. -/
theorem mem_blk6 (t : Fin cfg0.N) (i : S4096x11008.Idx) :
    i ∈ ((cfg0.win 6).blk t).view.set ↔ ∀ a : Fin 2, win0_6.index t a * S1408x512.size a ≤ (i a).val
      ∧ (i a).val < win0_6.index t a * S1408x512.size a + win0_6.xsize (grid0.coords t) a := by
  show i ∈ ((View.whole main_v3).slice (win0_6.rect t)).set ↔ _
  rw [View.set_slice_whole, Rect.mem_set_unit]
  exact Iff.rfl

/-- Every index of the result array is in the block of some last point. -/
theorem cover6 (i : S4096x11008.Idx) :
    ∃ t : Fin cfg0.N, (cfg0.win 6).flush t = true ∧ i ∈ ((cfg0.win 6).blk t).view.set := by
  have hi0 : (i 0).val < 4096 := (i 0).isLt
  have hi1 : (i 1).val < 11008 := (i 1).isLt
  have hN : cfg0.N = 264 := N_0
  let t : Fin cfg0.N := ⟨((i 0).val / 1408 * 22 + (i 1).val / 512) * 4 + 3, by omega⟩
  have ht : t.val = ((i 0).val / 1408 * 22 + (i 1).val / 512) * 4 + 3 := rfl
  obtain ⟨e0, e1, e2, e3⟩ := idx_facts6 t
  refine ⟨t, (flush0_6 t).mpr (by omega), ?_⟩
  rw [mem_blk6]
  intro a
  match a with
  | ⟨0, _⟩ =>
    show win0_6.index t (0 : Fin 2) * 1408 ≤ (i 0).val ∧ (i 0).val < win0_6.index t (0 : Fin 2) * 1408 + win0_6.xsize (grid0.coords t) (0 : Fin 2)
    rw [e0, e2]; omega
  | ⟨1, _⟩ =>
    show win0_6.index t (1 : Fin 2) * 512 ≤ (i 1).val ∧ (i 1).val < win0_6.index t (1 : Fin 2) * 512 + win0_6.xsize (grid0.coords t) (1 : Fin 2)
    rw [e1, e3]; omega

/-- The result array after the run is the specified result. -/
theorem final6 (c : Dev nD) : (dats m 0 c).arrAt 6 cfg0.N = KG m c :=
  (dats m 0 c).arrAt_eq_of_cover 6 (KG m c) (fun t _ => flushed6_eq m c t) (cover6)

/-- The run, read: the result at the specified result of the arguments, the arguments unchanged. -/
theorem run : θ_run defs (onTc (τ := τ) (main (F := Ideal))) ⟨m, fun _ => 0, ρ⟩ (fun r => ∀ c : Dev nD,
      r.2.mem ((c.tc : Thread nD τ).loc main_v3) = KG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c)))⟩)
    (run_main m ρ)

end Cert.KernelIdeal.Hand

end
-- ==== Proof.lean ====
/-
  The certificate of a tiled, group-quantized linear layer with relative weight noise.

  The kernel computes out[b, o] = (∑ i, x[b, i] * wNoisy[o, i]) + bias[o] block by block: a grid point (mi, ni, k)
  takes rows 1408 * mi.. of the activations, output features 512 * ni.. of the weights and input features
  1024 * k.., dequantizes the weight block ((q - zero[o, i / 128]) * scale[o, i / 128]), adds the noise scaled by
  0.05 of the weight's magnitude, and adds the block's product into an accumulator that it clears at k = 0 and
  stores, plus the bias, at k = 3. The reference computes the same noisy weights for the whole matrix and takes one
  product. On the extended reals the format changes vanish and the two differ only in how the sum over the 4096
  input features is grouped — four blocks of 1024 against one sum — and addition there is associative and
  commutative, so the results are equal; no finiteness of the inputs is used. The row blocks and the
  output-feature blocks overhang their arrays at the last block; what the kernel computes there from words nothing
  names is never written back, and every entry that IS written back depends only on entries inside the arrays.

  The three frames: the word-level kernel's by running its body on staging buffers at arbitrary contents
  (KernelFrame), the idealized kernel's as a by-product of its value run (IdealRun), the reference's from its run
  (RefIsSpec). The idealization rewrote nothing, so its ledger is empty.
-/
import proofs.«104597_j16475494548100_1_alg».proof.Defs
import proofs.«104597_j16475494548100_1_alg».proof.Proof.Gen.Kernel
import proofs.«104597_j16475494548100_1_alg».proof.Proof.Gen.KernelIdeal
import proofs.«104597_j16475494548100_1_alg».proof.Proof.Gen.ReferenceIdeal
import proofs.«104597_j16475494548100_1_alg».proof.Proof.Gen.Pre_finite_inputs
import proofs.«104597_j16475494548100_1_alg».proof.Proof.Gen.ReferenceIdeal.Run
import proofs.«104597_j16475494548100_1_alg».proof.Proof.Gen.ReferenceIdeal.Read
import proofs.«104597_j16475494548100_1_alg».proof.Proof.KernelFrame
import proofs.«104597_j16475494548100_1_alg».proof.Proof.RefIsSpec
import proofs.«104597_j16475494548100_1_alg».proof.Proof.IdealRun
import Idealize.ShloMosaic.Adequacy
import Idealize.ShloMosaic.Init

noncomputable section

namespace Cert.Proof

open Idealize.ShloMosaic Idealize.SL.Sem

/-- The idealized kernel's frame: its value run with the result dropped. -/
theorem frame_ki : Cert.frame_KernelIdeal := fun m ρ _ =>
  (θ_run Cert.KernelIdeal.defs _ _).mono (fun _ h c => (h c).2) (Cert.KernelIdeal.Hand.run m ρ)

/-- Both idealized programs end with the specified result of arguments that agree. -/
theorem algebraic : Cert.algebraic_KernelIdeal_ReferenceIdeal := by
  intro m ρ m' ρ' _ hagree
  refine ⟨fun c => Cert.KernelIdeal.Hand.KG m c, Cert.KernelIdeal.Hand.run m ρ, ?_⟩
  refine (θ_run Cert.ReferenceIdeal.defs _ _).mono (fun _ h c => ⟨(h c).1.trans ?_, (h c).2⟩)
    (Cert.RefIsSpec.ref_run m' ρ')
  rw [(hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  Cert.KernelFrame.frame, frame_ki, Cert.RefIsSpec.frame, trivial, algebraic⟩

end Cert.Proof

end
